-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x512 : Shape := ⟨2, ![512, 512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  natLt_1_32 : 1 < 32
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .f32 = 32 ∨ (Rect.block (s := S4096x4096) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x4096.size a
  hwx1_3 : ∀ i : grid1.Coords, EltTy.bits .f32 = 32 ∨ (Rect.block (s := S8192x4096) S1024x512.size (cc1_transform_3 i) (hinb1_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .i1⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Bits.R0Base.lean ====
/-
  Layer 1 of the two-layer network as a grid of 8 x 8 x 8 points (row block, column block, contraction block),
  the contraction block running fastest: what every statement about the points of this grid is made over.
  A window's block at a point is read off the array the layer is entered with; the two branch conditions of the body
  depend on the contraction coordinate alone (it is 0: the accumulator is cleared first; it is 7: the accumulator plus
  the bias row is turned into the result block); the result block is left alone, and not written back, at the other
  points; the accumulator is the one buffer the body carries from a point to the next.
-/
import proofs.«132412_j54778012893659_2_alg».proof.Proof.Gen.Kernel.Launch
import proofs.«132412_j54778012893659_2_alg».proof.Proof.Gen.Kernel.Skeleton
import proofs.«132412_j54778012893659_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the layer finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its block at every point, whether the block was moved in at that point or at an
    earlier one with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's current buffer holds its block at every point, whether the block was moved in at that point or at an
    earlier one with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's current buffer holds its block at every point, whether the block was moved in at that point or at an
    earlier one with the same block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-- The contraction coordinate is 0 (the accumulator is cleared at this point). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The contraction coordinate is 7 (the result block is stored at this point). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-- One buffer of the result window, through which its contents are stated. -/
abbrev VO0_3 : View sig .tc .vmem S1024x512 .f32 := (Memref.whole cc0_stg3_0 : Memref sig .tc .vmem S1024x512 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
/-- The accumulator: a whole buffer of the layer's own, passed beside the windows. -/
abbrev scM0 : Memref sig .tc .vmem S1024x512 .f32 := Memref.whole cc0_scratch0
abbrev VS0 : View sig .tc .vmem S1024x512 .f32 := (scM0).view

/-- The buffers of the other layer, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the layer is handed at its first point: the accumulator at some contents, the other layer's buffers, the generator register. -/
theorem PhiA0_split (c : Dev nD) : (Pipeline.ΦA spec0 c : sProp 𝕄)
    ⊢ iprop((∃ d, owns (c : Thread nD τ) scM0 fullShare d) ∗ others0 c ∗ (∃ r, prngReg c r)) := by
  unfold Pipeline.ΦA others0; rw [scopedRest0_eq]; simp only [scM0, owns_whole]
  iintro ⟨⟨HS, H0, H1, H2, H3, H4, H5, H6, H7, H8⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And the same given back. -/
theorem PhiA0_join (c : Dev nD) : iprop((∃ d, owns (c : Thread nD τ) scM0 fullShare d) ∗ others0 c ∗ (∃ r, prngReg c r))
    ⊢ (Pipeline.ΦA spec0 c : sProp 𝕄) := by
  unfold Pipeline.ΦA others0; rw [scopedRest0_eq]; simp only [scM0, owns_whole]
  iintro ⟨HS, ⟨H0, H1, H2, H3, H4, H5, H6, H7, H8⟩, Hg⟩
  isplitl [HS H0 H1 H2 H3 H4 H5 H6 H7 H8]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

end Cert.Kernel.Hand

end
-- ==== Proof.Bits.R0RunA.lean ====
/-
  The body of layer 1 run at a point whose contraction coordinate is 0: the accumulator is cleared, the product of the two input blocks is added to it; the result block is left as found.
  The stores each buffer ends with (latest first) are found by running the body; on whole buffers — the inputs at their
  contents, the accumulator at what the point before left — the body runs to its end holding the inputs as they were.
-/
import proofs.«132412_j54778012893659_2_alg».proof.Proof.Bits.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is 0: the accumulator is cleared, the product of the two input blocks is added to it; the result block is left as found. -/
noncomputable def kernelRun0_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Bits.R0RunB.lean ====
/-
  The body of layer 1 run at a point whose contraction coordinate is neither 0 nor 7: the product of the two input blocks is added to the accumulator; the result block is left as found.
  The stores each buffer ends with (latest first) are found by running the body; on whole buffers — the inputs at their
  contents, the accumulator at what the point before left — the body runs to its end holding the inputs as they were.
-/
import proofs.«132412_j54778012893659_2_alg».proof.Proof.Bits.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is neither 0 nor 7: the product of the two input blocks is added to the accumulator; the result block is left as found. -/
noncomputable def kernelRun0_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Bits.R0RunC.lean ====
/-
  The body of layer 1 run at a point whose contraction coordinate is 7: the product of the two input blocks is added to the accumulator, and the accumulator plus the bias row, passed through the layer's last step, is stored as the result block.
  The stores each buffer ends with (latest first) are found by running the body; on whole buffers — the inputs at their
  contents, the accumulator at what the point before left — the body runs to its end holding the inputs as they were.
-/
import proofs.«132412_j54778012893659_2_alg».proof.Proof.Bits.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is 7: the product of the two input blocks is added to the accumulator, and the accumulator plus the bias row, passed through the layer's last step, is stored as the result block. -/
noncomputable def kernelRun0_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Bits.R0Frame.lean ====
/-
  Layer 1 point by point: what the accumulator and the result block's buffer hold after each grid point — the
  accumulator is cleared when the contraction coordinate is 0, gains the product of the point's two input blocks at
  every point, and at contraction coordinate 7 the result block is made from it and the bias row —, the layer's
  proof data over these contents, and the body's obligation at every point.
-/
import proofs.«132412_j54778012893659_2_alg».proof.Proof.Bits.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The result block's buffer after a point of case A: the stores found there read back (none: the block is left alone, and nothing consults this). -/
def out0_A_3 (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) : Vec F S1024x512 .f32 :=
  VO0_3.read (Elt F) (VO0_3.writes (Elt F) VO0_3.junk (kernelRun0_A c i arg3 harg3 arg4 harg4 arg5 harg5 arg6 harg6 arg7 harg7 hc0 hc1 x0 x1 x2).1)

/-- The stores into the accumulator at a point of case A cover it. -/
theorem scover0_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) (y : S1024x512.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x512.size (by sl_kernel_rfl) y

/-- The accumulator after a point of case A: the stores found there read back. -/
def sout0_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) : Vec F S1024x512 .f32 :=
  VS0.read (Elt F) (VS0.writes (Elt F) VS0.junk (kernelRun0_A c i arg3 harg3 arg4 harg4 arg5 harg5 arg6 harg6 arg7 harg7 hc0 hc1 x0 x1 x2).2.1)

/-- The result block's buffer after a point of case B: the stores found there read back (none: the block is left alone, and nothing consults this). -/
def out0_B_3 (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) : Vec F S1024x512 .f32 :=
  VO0_3.read (Elt F) (VO0_3.writes (Elt F) VO0_3.junk (kernelRun0_B c i arg3 harg3 arg4 harg4 arg5 harg5 arg6 harg6 arg7 harg7 hc0 hc1 x0 x1 x2 xs0).1)

/-- The stores into the accumulator at a point of case B cover it. -/
theorem scover0_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) (y : S1024x512.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x512.size (by sl_kernel_rfl) y

/-- The accumulator after a point of case B: the stores found there read back. -/
def sout0_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) : Vec F S1024x512 .f32 :=
  VS0.read (Elt F) (VS0.writes (Elt F) VS0.junk (kernelRun0_B c i arg3 harg3 arg4 harg4 arg5 harg5 arg6 harg6 arg7 harg7 hc0 hc1 x0 x1 x2 xs0).2.1)

/-- The result block's buffer after a point of case C: the stores found there read back. -/
def out0_C_3 (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) : Vec F S1024x512 .f32 :=
  VO0_3.read (Elt F) (VO0_3.writes (Elt F) VO0_3.junk (kernelRun0_C c i arg3 harg3 arg4 harg4 arg5 harg5 arg6 harg6 arg7 harg7 hc0 hc1 x0 x1 x2 xs0).1)

/-- The stores into the accumulator at a point of case C cover it. -/
theorem scover0_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) (y : S1024x512.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x512.size (by sl_kernel_rfl) y

/-- The accumulator after a point of case C: the stores found there read back. -/
def sout0_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) : Vec F S1024x512 .f32 :=
  VS0.read (Elt F) (VS0.writes (Elt F) VS0.junk (kernelRun0_C c i arg3 harg3 arg4 harg4 arg5 harg5 arg6 harg6 arg7 harg7 hc0 hc1 x0 x1 x2 xs0).2.1)

/-- The store into the result block at a point of case C covers it. -/
theorem cover0_C_3 (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) (y : S1024x512.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x512.size (by sl_kernel_rfl) y

/-- THE ACCUMULATION, point by point: the pair (result block's buffer, accumulator) after the body at position `n` —
    the case the contraction coordinate selects, run on the point's input blocks, over the accumulator the point before left. -/
def outsAt0 (c : Dev nD) : (n : ℕ) → n < cfg0.N → Vec F S1024x512 .f32 × Vec F S1024x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the layer keeps between points: before the first point what it was handed; afterwards the accumulator at what
    the point before left in it, the other layer's buffers, the generator register. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ others0 c ∗ (∃ r, prngReg c r)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ others0 c ∗ (∃ r, prngReg c r)) := by
  cases n with
  | zero => exact absurd rfl hz
  | succ n => rfl

/-- The proof data of the layer on core `c`: the arrays as the layer finds them; after the body at point `t` each
    input's buffer at its block and the result's at the accumulation's first component; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the contraction coordinate says which case the point is
    in; the accumulator comes in at what the point before left (at anything at the very first point) and goes back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [show cfg0.idle 0 (grid0.coords t) = false from rfl], after0_0]
      rw [show (dat0 V c).leavesExact 1 t = owns (c : Thread nD τ) (ms0_1 t) fullShare ((dat0 V c).after 1 t) from by
        unfold Dat.leavesExact; rw [show cfg0.idle 1 (grid0.coords t) = false from rfl], after0_1]
      rw [show (dat0 V c).leavesExact 2 t = owns (c : Thread nD τ) (ms0_2 t) fullShare ((dat0 V c).after 2 t) from by
        unfold Dat.leavesExact; rw [show cfg0.idle 2 (grid0.coords t) = false from rfl], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A; (try dsimp only)
      by_cases hz : t.val = 0
      · rw [PhiS0_castSucc V c t, PhiS0_zero V c _ _ hz]
        iintro ⟨HΦ, Ho, ⟨%d0, H0⟩, ⟨%d1, H1⟩, ⟨%d2, H2⟩, ⟨%d3, H3⟩⟩
        ihave HΦ' := (PhiA0_split c) $$ HΦ
        icases HΦ' with ⟨HS0, Hoth, Hg⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover0_A c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HS0, Hoth, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover0_A c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 0 t = owns (c : Thread nD τ) (ms0_0 t) fullShare ((dat0 V c).after 0 t) from by
        unfold Dat.leavesExact; rw [show cfg0.idle 0 (grid0.coords t) = false from rfl], after0_0]
      rw [show (dat0 V c).leavesExact 1 t = owns (c : Thread nD τ) (ms0_1 t) fullShare ((dat0 V c).after 1 t) from by
        unfold Dat.leavesExact; rw [show cfg0.idle 1 (grid0.coords t) = false from rfl], after0_1]
      rw [show (dat0 V c).leavesExact 2 t = owns (c : Thread nD τ) (ms0_2 t) fullShare ((dat0 V c).after 2 t) from by
        unfold Dat.leavesExact; rw [show cfg0.idle 2 (grid0.coords t) = false from rfl], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C; (try dsimp only)
      have hz : t.val ≠ 0 := by omega
      rw [PhiS0_castSucc V c t, PhiS0_pos V c _ _ hz]
      iintro ⟨⟨HS0, Hoth, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0]
        · unfold owns; iexists _; isplitr
          swap; · iexact HS0
          ipureintro; exact View.read_writes_of_cover _ _ _ _ _ (scover0_C c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [show cfg0.idle 0 (grid0.coords t) = false from rfl], after0_0]
      rw [show (dat0 V c).leavesExact 1 t = owns (c : Thread nD τ) (ms0_1 t) fullShare ((dat0 V c).after 1 t) from by
        unfold Dat.leavesExact; rw [show cfg0.idle 1 (grid0.coords t) = false from rfl], after0_1]
      rw [show (dat0 V c).leavesExact 2 t = owns (c : Thread nD τ) (ms0_2 t) fullShare ((dat0 V c).after 2 t) from by
        unfold Dat.leavesExact; rw [show cfg0.idle 2 (grid0.coords t) = false from rfl], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨HS0, Hoth, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0]
        · unfold owns; iexists _; isplitr
          swap; · iexact HS0
          ipureintro; exact View.read_writes_of_cover _ _ _ _ _ (scover0_B c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the layer is handed is what it keeps before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the layer gives back what it was handed: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 512 := N_0; omega
  rw [show (dat0 V c).Φ (Fin.last cfg0.N) = PhiS0 V c (Fin.last cfg0.N).val (Nat.le_of_lt_succ (Fin.last cfg0.N).isLt) from rfl, PhiS0_pos V c _ _ ht]
  iintro ⟨HS0, Hoth, Hg⟩
  iapply (PhiA0_join c)
  isplitl [HS0]; · iexists _; iexact HS0
  isplitl [Hoth]; · iexact Hoth
  iexact Hg

end Cert.Kernel.Hand

end
-- ==== Proof.Bits.R1Base.lean ====
/-
  Layer 2 of the two-layer network as a grid of 8 x 8 x 8 points (row block, column block, contraction block),
  the contraction block running fastest: what every statement about the points of this grid is made over.
  A window's block at a point is read off the array the layer is entered with; the two branch conditions of the body
  depend on the contraction coordinate alone (it is 0: the accumulator is cleared first; it is 7: the accumulator plus
  the bias row is turned into the result block); the result block is left alone, and not written back, at the other
  points; the accumulator is the one buffer the body carries from a point to the next.
-/
import proofs.«132412_j54778012893659_2_alg».proof.Proof.Gen.Kernel.Launch
import proofs.«132412_j54778012893659_2_alg».proof.Proof.Gen.Kernel.Skeleton
import proofs.«132412_j54778012893659_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the layer finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current buffer holds its block at every point, whether the block was moved in at that point or at an
    earlier one with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's current buffer holds its block at every point, whether the block was moved in at that point or at an
    earlier one with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input's current buffer holds its block at every point, whether the block was moved in at that point or at an
    earlier one with the same block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- The contraction coordinate is 0 (the accumulator is cleared at this point). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The contraction coordinate is 7 (the result block is stored at this point). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One buffer of the result window, through which its contents are stated. -/
abbrev VO1_3 : View sig .tc .vmem S1024x512 .f32 := (Memref.whole cc1_stg3_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The accumulator: a whole buffer of the layer's own, passed beside the windows. -/
abbrev scM1 : Memref sig .tc .vmem S1024x512 .f32 := Memref.whole cc1_scratch0
abbrev VS1 : View sig .tc .vmem S1024x512 .f32 := (scM1).view

/-- The buffers of the other layer, each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the layer is handed at its first point: the accumulator at some contents, the other layer's buffers, the generator register. -/
theorem PhiA1_split (c : Dev nD) : (Pipeline.ΦA spec1 c : sProp 𝕄)
    ⊢ iprop((∃ d, owns (c : Thread nD τ) scM1 fullShare d) ∗ others1 c ∗ (∃ r, prngReg c r)) := by
  unfold Pipeline.ΦA others1; rw [scopedRest1_eq]; simp only [scM1, owns_whole]
  iintro ⟨⟨H0, H1, H2, H3, H4, H5, H6, H7, H8, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And the same given back. -/
theorem PhiA1_join (c : Dev nD) : iprop((∃ d, owns (c : Thread nD τ) scM1 fullShare d) ∗ others1 c ∗ (∃ r, prngReg c r))
    ⊢ (Pipeline.ΦA spec1 c : sProp 𝕄) := by
  unfold Pipeline.ΦA others1; rw [scopedRest1_eq]; simp only [scM1, owns_whole]
  iintro ⟨HS, ⟨H0, H1, H2, H3, H4, H5, H6, H7, H8⟩, Hg⟩
  isplitl [HS H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

end Cert.Kernel.Hand

end
-- ==== Proof.Bits.R1RunA.lean ====
/-
  The body of layer 2 run at a point whose contraction coordinate is 0: the accumulator is cleared, the product of the two input blocks is added to it; the result block is left as found.
  The stores each buffer ends with (latest first) are found by running the body; on whole buffers — the inputs at their
  contents, the accumulator at what the point before left — the body runs to its end holding the inputs as they were.
-/
import proofs.«132412_j54778012893659_2_alg».proof.Proof.Bits.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is 0: the accumulator is cleared, the product of the two input blocks is added to it; the result block is left as found. -/
noncomputable def kernelRun1_A (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x512 .f32) (x1 : Vec F S512x512 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Bits.R1RunB.lean ====
/-
  The body of layer 2 run at a point whose contraction coordinate is neither 0 nor 7: the product of the two input blocks is added to the accumulator; the result block is left as found.
  The stores each buffer ends with (latest first) are found by running the body; on whole buffers — the inputs at their
  contents, the accumulator at what the point before left — the body runs to its end holding the inputs as they were.
-/
import proofs.«132412_j54778012893659_2_alg».proof.Proof.Bits.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is neither 0 nor 7: the product of the two input blocks is added to the accumulator; the result block is left as found. -/
noncomputable def kernelRun1_B (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x512 .f32) (x1 : Vec F S512x512 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Bits.R1RunC.lean ====
/-
  The body of layer 2 run at a point whose contraction coordinate is 7: the product of the two input blocks is added to the accumulator, and the accumulator plus the bias row, passed through the layer's last step, is stored as the result block.
  The stores each buffer ends with (latest first) are found by running the body; on whole buffers — the inputs at their
  contents, the accumulator at what the point before left — the body runs to its end holding the inputs as they were.
-/
import proofs.«132412_j54778012893659_2_alg».proof.Proof.Bits.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is 7: the product of the two input blocks is added to the accumulator, and the accumulator plus the bias row, passed through the layer's last step, is stored as the result block. -/
noncomputable def kernelRun1_C (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Bits.R1Frame.lean ====
/-
  Layer 2 point by point: what the accumulator and the result block's buffer hold after each grid point — the
  accumulator is cleared when the contraction coordinate is 0, gains the product of the point's two input blocks at
  every point, and at contraction coordinate 7 the result block is made from it and the bias row —, the layer's
  proof data over these contents, and the body's obligation at every point.
-/
import proofs.«132412_j54778012893659_2_alg».proof.Proof.Bits.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The result block's buffer after a point of case A: the stores found there read back (none: the block is left alone, and nothing consults this). -/
def out1_A_3 (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x512 .f32) (x1 : Vec F S512x512 .f32) (x2 : Vec F S1x512 .f32) : Vec F S1024x512 .f32 :=
  VO1_3.read (Elt F) (VO1_3.writes (Elt F) VO1_3.junk (kernelRun1_A c i arg3 harg3 arg4 harg4 arg5 harg5 arg6 harg6 arg7 harg7 hc0 hc1 x0 x1 x2).1)

/-- The stores into the accumulator at a point of case A cover it. -/
theorem scover1_A (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x512 .f32) (x1 : Vec F S512x512 .f32) (x2 : Vec F S1x512 .f32) (y : S1024x512.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x512.size (by sl_kernel_rfl) y

/-- The accumulator after a point of case A: the stores found there read back. -/
def sout1_A (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x512 .f32) (x1 : Vec F S512x512 .f32) (x2 : Vec F S1x512 .f32) : Vec F S1024x512 .f32 :=
  VS1.read (Elt F) (VS1.writes (Elt F) VS1.junk (kernelRun1_A c i arg3 harg3 arg4 harg4 arg5 harg5 arg6 harg6 arg7 harg7 hc0 hc1 x0 x1 x2).2.1)

/-- The result block's buffer after a point of case B: the stores found there read back (none: the block is left alone, and nothing consults this). -/
def out1_B_3 (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x512 .f32) (x1 : Vec F S512x512 .f32) (x2 : Vec F S1x512 .f32) (xs0 : Vec F S1024x512 .f32) : Vec F S1024x512 .f32 :=
  VO1_3.read (Elt F) (VO1_3.writes (Elt F) VO1_3.junk (kernelRun1_B c i arg3 harg3 arg4 harg4 arg5 harg5 arg6 harg6 arg7 harg7 hc0 hc1 x0 x1 x2 xs0).1)

/-- The stores into the accumulator at a point of case B cover it. -/
theorem scover1_B (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x512 .f32) (x1 : Vec F S512x512 .f32) (x2 : Vec F S1x512 .f32) (xs0 : Vec F S1024x512 .f32) (y : S1024x512.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x512.size (by sl_kernel_rfl) y

/-- The accumulator after a point of case B: the stores found there read back. -/
def sout1_B (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x512 .f32) (x1 : Vec F S512x512 .f32) (x2 : Vec F S1x512 .f32) (xs0 : Vec F S1024x512 .f32) : Vec F S1024x512 .f32 :=
  VS1.read (Elt F) (VS1.writes (Elt F) VS1.junk (kernelRun1_B c i arg3 harg3 arg4 harg4 arg5 harg5 arg6 harg6 arg7 harg7 hc0 hc1 x0 x1 x2 xs0).2.1)

/-- The result block's buffer after a point of case C: the stores found there read back. -/
def out1_C_3 (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) : Vec F S1024x512 .f32 :=
  VO1_3.read (Elt F) (VO1_3.writes (Elt F) VO1_3.junk (kernelRun1_C c i arg3 harg3 arg4 harg4 arg5 harg5 arg6 harg6 arg7 harg7 hc0 hc1 x0 x1 x2 xs0).1)

/-- The stores into the accumulator at a point of case C cover it. -/
theorem scover1_C (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) (y : S1024x512.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x512.size (by sl_kernel_rfl) y

/-- The accumulator after a point of case C: the stores found there read back. -/
def sout1_C (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) : Vec F S1024x512 .f32 :=
  VS1.read (Elt F) (VS1.writes (Elt F) VS1.junk (kernelRun1_C c i arg3 harg3 arg4 harg4 arg5 harg5 arg6 harg6 arg7 harg7 hc0 hc1 x0 x1 x2 xs0).2.1)

/-- The store into the result block at a point of case C covers it. -/
theorem cover1_C_3 (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) (y : S1024x512.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x512.size (by sl_kernel_rfl) y

/-- THE ACCUMULATION, point by point: the pair (result block's buffer, accumulator) after the body at position `n` —
    the case the contraction coordinate selects, run on the point's input blocks, over the accumulator the point before left. -/
def outsAt1 (c : Dev nD) : (n : ℕ) → n < cfg1.N → Vec F S1024x512 .f32 × Vec F S1024x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the layer keeps between points: before the first point what it was handed; afterwards the accumulator at what
    the point before left in it, the other layer's buffers, the generator register. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ others1 c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ others1 c ∗ (∃ r, prngReg c r)) := by
  cases n with
  | zero => exact absurd rfl hz
  | succ n => rfl

/-- The proof data of the layer on core `c`: the arrays as the layer finds them; after the body at point `t` each
    input's buffer at its block and the result's at the accumulation's first component; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the contraction coordinate says which case the point is
    in; the accumulator comes in at what the point before left (at anything at the very first point) and goes back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [show cfg1.idle 0 (grid1.coords t) = false from rfl], after1_0]
      rw [show (dat1 V c).leavesExact 1 t = owns (c : Thread nD τ) (ms1_1 t) fullShare ((dat1 V c).after 1 t) from by
        unfold Dat.leavesExact; rw [show cfg1.idle 1 (grid1.coords t) = false from rfl], after1_1]
      rw [show (dat1 V c).leavesExact 2 t = owns (c : Thread nD τ) (ms1_2 t) fullShare ((dat1 V c).after 2 t) from by
        unfold Dat.leavesExact; rw [show cfg1.idle 2 (grid1.coords t) = false from rfl], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split c) $$ HΦ
        icases HΦ' with ⟨HS0, Hoth, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, Hoth, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [show cfg1.idle 0 (grid1.coords t) = false from rfl], after1_0]
      rw [show (dat1 V c).leavesExact 1 t = owns (c : Thread nD τ) (ms1_1 t) fullShare ((dat1 V c).after 1 t) from by
        unfold Dat.leavesExact; rw [show cfg1.idle 1 (grid1.coords t) = false from rfl], after1_1]
      rw [show (dat1 V c).leavesExact 2 t = owns (c : Thread nD τ) (ms1_2 t) fullShare ((dat1 V c).after 2 t) from by
        unfold Dat.leavesExact; rw [show cfg1.idle 2 (grid1.coords t) = false from rfl], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      have hz : t.val ≠ 0 := by omega
      rw [PhiS1_castSucc V c t, PhiS1_pos V c _ _ hz]
      iintro ⟨⟨HS0, Hoth, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0]
        · unfold owns; iexists _; isplitr
          swap; · iexact HS0
          ipureintro; exact View.read_writes_of_cover _ _ _ _ _ (scover1_C c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [show cfg1.idle 0 (grid1.coords t) = false from rfl], after1_0]
      rw [show (dat1 V c).leavesExact 1 t = owns (c : Thread nD τ) (ms1_1 t) fullShare ((dat1 V c).after 1 t) from by
        unfold Dat.leavesExact; rw [show cfg1.idle 1 (grid1.coords t) = false from rfl], after1_1]
      rw [show (dat1 V c).leavesExact 2 t = owns (c : Thread nD τ) (ms1_2 t) fullShare ((dat1 V c).after 2 t) from by
        unfold Dat.leavesExact; rw [show cfg1.idle 2 (grid1.coords t) = false from rfl], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨HS0, Hoth, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0]
        · unfold owns; iexists _; isplitr
          swap; · iexact HS0
          ipureintro; exact View.read_writes_of_cover _ _ _ _ _ (scover1_B c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the layer is handed is what it keeps before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the layer gives back what it was handed: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 512 := N_1; omega
  rw [show (dat1 V c).Φ (Fin.last cfg1.N) = PhiS1 V c (Fin.last cfg1.N).val (Nat.le_of_lt_succ (Fin.last cfg1.N).isLt) from rfl, PhiS1_pos V c _ _ ht]
  iintro ⟨HS0, Hoth, Hg⟩
  iapply (PhiA1_join c)
  isplitl [HS0]; · iexists _; iexact HS0
  isplitl [Hoth]; · iexact Hoth
  iexact Hg

end Cert.Kernel.Hand

end
-- ==== Proof.Bits.Run.lean ====
/-
  The whole program: the two bias rows reshaped, then layer 1, then layer 2 reading layer 1's result array.
  The contents of every unscoped buffer are followed from the launch through the three items; every run of the program
  ends, and the final memory holds each buffer at the last of these contents: each argument as launched, each layer's
  result array at what the layer's write-backs leave.
-/
import proofs.«132412_j54778012893659_2_alg».proof.Proof.Bits.R0Frame
import proofs.«132412_j54778012893659_2_alg».proof.Proof.Bits.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes (layer 1's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 1 (layer 2's entry): its result array at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After layer 2. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! The arguments end as launched: the reshapes write only their own results, a layer writes only its result array. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The program's result array at the end: what layer 2's write-backs leave. -/
theorem W3_main_v3 (c : Dev nD) : W3 m ρ c (Proc.devRef .tc main_v3) = (dat1 (V2 m ρ) c).arrAt 3 cfg1.N := W3_arr m ρ c 3
/-- Layer 2's input array: what layer 1's write-backs leave. -/
theorem V2_main_v2 (c : Dev nD) : V2 m ρ c main_v2 = (dat0 (V1 m ρ) c).arrAt 3 cfg0.N := W2_arr m ρ c 3

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V2 m ρ) c
abbrev 𝒱H : Variants := Variants.none
abbrev LH : GSem nD τ sig → Finset Unit := fun _ => ∅
abbrev lvH : GSem nD τ sig → Unit → ℕ := fun _ _ => 0
/-- What rides beside the buffers through every item: the generator register at some state and the core owing nothing. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostOps0_freshH : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What enters layer 1: the generator register and the buffers no window stages (a table, were there one, is let go). -/
theorem hinA0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- And what it gives back. -/
theorem houtA0 (c : Dev nD) : (Pipeline.ΦA spec0 c : sProp 𝕄)
      ⊢ iprop((∃ r, prngReg c r) ∗ emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- What enters layer 2: the generator register and the buffers no window stages (a table, were there one, is let go). -/
theorem hinA1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- And what it gives back. -/
theorem houtA1 (c : Dev nD) : (Pipeline.ΦA spec1 c : sProp 𝕄)
      ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

abbrev TnH (c : Dev nD) : sProp 𝕄 := iprop(StableHlo.held (c : Thread nD τ) (Pipeline.ucRefs τ sig) (W3 m ρ c) ∗ ∃ r, prngReg c r)

set_option backward.isDefEq.respectTransparency.types false in
/-- Layer 1 as a segment of the program: entered from every unscoped buffer at the contents before it, left at the
    contents after it; its arrays split out of the unscoped buffers and put back at what the layer leaves. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hinA0 c _).trans (hin0 (V1 m ρ) c)
  hout c := by
    rw [Pipeline.ownSems0_none]; exact (hout0 (V1 m ρ) c).trans (houtA0 c)
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2 as a segment of the program: entered from every unscoped buffer at the contents before it, left at the
    contents after it; its arrays split out of the unscoped buffers and put back at what the layer leaves. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hinA1 c _).trans (hin1 (V2 m ρ) c)
  hout c := by
    rw [Pipeline.ownSems0_none]; exact (hout1 (V2 m ρ) c).trans (houtA1 c)
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) admH (pdats m ρ) () defs₀ 𝒱H LH lvH) :=
  [ .host (hseg hostOps0 hostOps0_sub hostOps0_freshH (W0 m ρ)),
    .region (reg0 m ρ),
    .region (reg1 m ρ) ]
theorem main_run (c : Dev nD) : main (F := F) c = Pipeline.Seg.run (segsH m ρ) := (main_chain c).trans (by chain_rfl)

set_option backward.isDefEq.respectTransparency.types false in
/-- Every weakly fair execution of the program from memory `m` with zero counters terminates, nothing faulting, and
    every final memory holds each unscoped buffer at the last contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every run ends, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result array named: it ends at what layer 2's write-backs leave. -/
theorem run_value : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.Ideal.R0Base.lean ====
/-
  Layer 1 of the two-layer network as a grid of 8 x 8 x 8 points (row block, column block, contraction block),
  the contraction block running fastest: what every statement about the points of this grid is made over.
  A window's block at a point is read off the array the layer is entered with; the two branch conditions of the body
  depend on the contraction coordinate alone (it is 0: the accumulator is cleared first; it is 7: the accumulator plus
  the bias row is turned into the result block); the result block is left alone, and not written back, at the other
  points; the accumulator is the one buffer the body carries from a point to the next.
-/
import proofs.«132412_j54778012893659_2_alg».proof.Proof.Gen.KernelIdeal.Launch
import proofs.«132412_j54778012893659_2_alg».proof.Proof.Gen.KernelIdeal.Skeleton
import proofs.«132412_j54778012893659_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the layer finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its block at every point, whether the block was moved in at that point or at an
    earlier one with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's current buffer holds its block at every point, whether the block was moved in at that point or at an
    earlier one with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's current buffer holds its block at every point, whether the block was moved in at that point or at an
    earlier one with the same block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-- The contraction coordinate is 0 (the accumulator is cleared at this point). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The contraction coordinate is 7 (the result block is stored at this point). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-- One buffer of the result window, through which its contents are stated. -/
abbrev VO0_3 : View sig .tc .vmem S1024x512 .f32 := (Memref.whole cc0_stg3_0 : Memref sig .tc .vmem S1024x512 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
/-- The accumulator: a whole buffer of the layer's own, passed beside the windows. -/
abbrev scM0 : Memref sig .tc .vmem S1024x512 .f32 := Memref.whole cc0_scratch0
abbrev VS0 : View sig .tc .vmem S1024x512 .f32 := (scM0).view

/-- The buffers of the other layer, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the layer is handed at its first point: the accumulator at some contents, the other layer's buffers, the generator register. -/
theorem PhiA0_split (c : Dev nD) : (Pipeline.ΦA spec0 c : sProp 𝕄)
    ⊢ iprop((∃ d, owns (c : Thread nD τ) scM0 fullShare d) ∗ others0 c ∗ (∃ r, prngReg c r)) := by
  unfold Pipeline.ΦA others0; rw [scopedRest0_eq]; simp only [scM0, owns_whole]
  iintro ⟨⟨HS, H0, H1, H2, H3, H4, H5, H6, H7, H8⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And the same given back. -/
theorem PhiA0_join (c : Dev nD) : iprop((∃ d, owns (c : Thread nD τ) scM0 fullShare d) ∗ others0 c ∗ (∃ r, prngReg c r))
    ⊢ (Pipeline.ΦA spec0 c : sProp 𝕄) := by
  unfold Pipeline.ΦA others0; rw [scopedRest0_eq]; simp only [scM0, owns_whole]
  iintro ⟨HS, ⟨H0, H1, H2, H3, H4, H5, H6, H7, H8⟩, Hg⟩
  isplitl [HS H0 H1 H2 H3 H4 H5 H6 H7 H8]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

end Cert.KernelIdeal.Hand

end
-- ==== Proof.Ideal.R0RunA.lean ====
/-
  The body of layer 1 run at a point whose contraction coordinate is 0: the accumulator is cleared, the product of the two input blocks is added to it; the result block is left as found.
  The stores each buffer ends with (latest first) are found by running the body; on whole buffers — the inputs at their
  contents, the accumulator at what the point before left — the body runs to its end holding the inputs as they were.
-/
import proofs.«132412_j54778012893659_2_alg».proof.Proof.Ideal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is 0: the accumulator is cleared, the product of the two input blocks is added to it; the result block is left as found. -/
noncomputable def kernelRun0_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.Ideal.R0RunB.lean ====
/-
  The body of layer 1 run at a point whose contraction coordinate is neither 0 nor 7: the product of the two input blocks is added to the accumulator; the result block is left as found.
  The stores each buffer ends with (latest first) are found by running the body; on whole buffers — the inputs at their
  contents, the accumulator at what the point before left — the body runs to its end holding the inputs as they were.
-/
import proofs.«132412_j54778012893659_2_alg».proof.Proof.Ideal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is neither 0 nor 7: the product of the two input blocks is added to the accumulator; the result block is left as found. -/
noncomputable def kernelRun0_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.Ideal.R0RunC.lean ====
/-
  The body of layer 1 run at a point whose contraction coordinate is 7: the product of the two input blocks is added to the accumulator, and the accumulator plus the bias row, passed through the layer's last step, is stored as the result block.
  The stores each buffer ends with (latest first) are found by running the body; on whole buffers — the inputs at their
  contents, the accumulator at what the point before left — the body runs to its end holding the inputs as they were.
-/
import proofs.«132412_j54778012893659_2_alg».proof.Proof.Ideal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is 7: the product of the two input blocks is added to the accumulator, and the accumulator plus the bias row, passed through the layer's last step, is stored as the result block. -/
noncomputable def kernelRun0_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.Ideal.R0Frame.lean ====
/-
  Layer 1 point by point: what the accumulator and the result block's buffer hold after each grid point — the
  accumulator is cleared when the contraction coordinate is 0, gains the product of the point's two input blocks at
  every point, and at contraction coordinate 7 the result block is made from it and the bias row —, the layer's
  proof data over these contents, and the body's obligation at every point.
-/
import proofs.«132412_j54778012893659_2_alg».proof.Proof.Ideal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The result block's buffer after a point of case A: the stores found there read back (none: the block is left alone, and nothing consults this). -/
def out0_A_3 (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) : Vec F S1024x512 .f32 :=
  VO0_3.read (Elt F) (VO0_3.writes (Elt F) VO0_3.junk (kernelRun0_A c i arg3 harg3 arg4 harg4 arg5 harg5 arg6 harg6 arg7 harg7 hc0 hc1 x0 x1 x2).1)

/-- The stores into the accumulator at a point of case A cover it. -/
theorem scover0_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) (y : S1024x512.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x512.size (by sl_kernel_rfl) y

/-- The accumulator after a point of case A: the stores found there read back. -/
def sout0_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) : Vec F S1024x512 .f32 :=
  VS0.read (Elt F) (VS0.writes (Elt F) VS0.junk (kernelRun0_A c i arg3 harg3 arg4 harg4 arg5 harg5 arg6 harg6 arg7 harg7 hc0 hc1 x0 x1 x2).2.1)

/-- The result block's buffer after a point of case B: the stores found there read back (none: the block is left alone, and nothing consults this). -/
def out0_B_3 (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) : Vec F S1024x512 .f32 :=
  VO0_3.read (Elt F) (VO0_3.writes (Elt F) VO0_3.junk (kernelRun0_B c i arg3 harg3 arg4 harg4 arg5 harg5 arg6 harg6 arg7 harg7 hc0 hc1 x0 x1 x2 xs0).1)

/-- The stores into the accumulator at a point of case B cover it. -/
theorem scover0_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) (y : S1024x512.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x512.size (by sl_kernel_rfl) y

/-- The accumulator after a point of case B: the stores found there read back. -/
def sout0_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) : Vec F S1024x512 .f32 :=
  VS0.read (Elt F) (VS0.writes (Elt F) VS0.junk (kernelRun0_B c i arg3 harg3 arg4 harg4 arg5 harg5 arg6 harg6 arg7 harg7 hc0 hc1 x0 x1 x2 xs0).2.1)

/-- The result block's buffer after a point of case C: the stores found there read back. -/
def out0_C_3 (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) : Vec F S1024x512 .f32 :=
  VO0_3.read (Elt F) (VO0_3.writes (Elt F) VO0_3.junk (kernelRun0_C c i arg3 harg3 arg4 harg4 arg5 harg5 arg6 harg6 arg7 harg7 hc0 hc1 x0 x1 x2 xs0).1)

/-- The stores into the accumulator at a point of case C cover it. -/
theorem scover0_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) (y : S1024x512.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x512.size (by sl_kernel_rfl) y

/-- The accumulator after a point of case C: the stores found there read back. -/
def sout0_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) : Vec F S1024x512 .f32 :=
  VS0.read (Elt F) (VS0.writes (Elt F) VS0.junk (kernelRun0_C c i arg3 harg3 arg4 harg4 arg5 harg5 arg6 harg6 arg7 harg7 hc0 hc1 x0 x1 x2 xs0).2.1)

/-- The store into the result block at a point of case C covers it. -/
theorem cover0_C_3 (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) (y : S1024x512.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x512.size (by sl_kernel_rfl) y

/-- THE ACCUMULATION, point by point: the pair (result block's buffer, accumulator) after the body at position `n` —
    the case the contraction coordinate selects, run on the point's input blocks, over the accumulator the point before left. -/
def outsAt0 (c : Dev nD) : (n : ℕ) → n < cfg0.N → Vec F S1024x512 .f32 × Vec F S1024x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the layer keeps between points: before the first point what it was handed; afterwards the accumulator at what
    the point before left in it, the other layer's buffers, the generator register. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ others0 c ∗ (∃ r, prngReg c r)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ others0 c ∗ (∃ r, prngReg c r)) := by
  cases n with
  | zero => exact absurd rfl hz
  | succ n => rfl

/-- The proof data of the layer on core `c`: the arrays as the layer finds them; after the body at point `t` each
    input's buffer at its block and the result's at the accumulation's first component; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the contraction coordinate says which case the point is
    in; the accumulator comes in at what the point before left (at anything at the very first point) and goes back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [show cfg0.idle 0 (grid0.coords t) = false from rfl], after0_0]
      rw [show (dat0 V c).leavesExact 1 t = owns (c : Thread nD τ) (ms0_1 t) fullShare ((dat0 V c).after 1 t) from by
        unfold Dat.leavesExact; rw [show cfg0.idle 1 (grid0.coords t) = false from rfl], after0_1]
      rw [show (dat0 V c).leavesExact 2 t = owns (c : Thread nD τ) (ms0_2 t) fullShare ((dat0 V c).after 2 t) from by
        unfold Dat.leavesExact; rw [show cfg0.idle 2 (grid0.coords t) = false from rfl], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A; (try dsimp only)
      by_cases hz : t.val = 0
      · rw [PhiS0_castSucc V c t, PhiS0_zero V c _ _ hz]
        iintro ⟨HΦ, Ho, ⟨%d0, H0⟩, ⟨%d1, H1⟩, ⟨%d2, H2⟩, ⟨%d3, H3⟩⟩
        ihave HΦ' := (PhiA0_split c) $$ HΦ
        icases HΦ' with ⟨HS0, Hoth, Hg⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover0_A c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HS0, Hoth, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover0_A c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 0 t = owns (c : Thread nD τ) (ms0_0 t) fullShare ((dat0 V c).after 0 t) from by
        unfold Dat.leavesExact; rw [show cfg0.idle 0 (grid0.coords t) = false from rfl], after0_0]
      rw [show (dat0 V c).leavesExact 1 t = owns (c : Thread nD τ) (ms0_1 t) fullShare ((dat0 V c).after 1 t) from by
        unfold Dat.leavesExact; rw [show cfg0.idle 1 (grid0.coords t) = false from rfl], after0_1]
      rw [show (dat0 V c).leavesExact 2 t = owns (c : Thread nD τ) (ms0_2 t) fullShare ((dat0 V c).after 2 t) from by
        unfold Dat.leavesExact; rw [show cfg0.idle 2 (grid0.coords t) = false from rfl], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C; (try dsimp only)
      have hz : t.val ≠ 0 := by omega
      rw [PhiS0_castSucc V c t, PhiS0_pos V c _ _ hz]
      iintro ⟨⟨HS0, Hoth, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0]
        · unfold owns; iexists _; isplitr
          swap; · iexact HS0
          ipureintro; exact View.read_writes_of_cover _ _ _ _ _ (scover0_C c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [show cfg0.idle 0 (grid0.coords t) = false from rfl], after0_0]
      rw [show (dat0 V c).leavesExact 1 t = owns (c : Thread nD τ) (ms0_1 t) fullShare ((dat0 V c).after 1 t) from by
        unfold Dat.leavesExact; rw [show cfg0.idle 1 (grid0.coords t) = false from rfl], after0_1]
      rw [show (dat0 V c).leavesExact 2 t = owns (c : Thread nD τ) (ms0_2 t) fullShare ((dat0 V c).after 2 t) from by
        unfold Dat.leavesExact; rw [show cfg0.idle 2 (grid0.coords t) = false from rfl], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨HS0, Hoth, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0]
        · unfold owns; iexists _; isplitr
          swap; · iexact HS0
          ipureintro; exact View.read_writes_of_cover _ _ _ _ _ (scover0_B c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the layer is handed is what it keeps before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the layer gives back what it was handed: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 512 := N_0; omega
  rw [show (dat0 V c).Φ (Fin.last cfg0.N) = PhiS0 V c (Fin.last cfg0.N).val (Nat.le_of_lt_succ (Fin.last cfg0.N).isLt) from rfl, PhiS0_pos V c _ _ ht]
  iintro ⟨HS0, Hoth, Hg⟩
  iapply (PhiA0_join c)
  isplitl [HS0]; · iexists _; iexact HS0
  isplitl [Hoth]; · iexact Hoth
  iexact Hg

end Cert.KernelIdeal.Hand

end
-- ==== Proof.Ideal.R1Base.lean ====
/-
  Layer 2 of the two-layer network as a grid of 8 x 8 x 8 points (row block, column block, contraction block),
  the contraction block running fastest: what every statement about the points of this grid is made over.
  A window's block at a point is read off the array the layer is entered with; the two branch conditions of the body
  depend on the contraction coordinate alone (it is 0: the accumulator is cleared first; it is 7: the accumulator plus
  the bias row is turned into the result block); the result block is left alone, and not written back, at the other
  points; the accumulator is the one buffer the body carries from a point to the next.
-/
import proofs.«132412_j54778012893659_2_alg».proof.Proof.Gen.KernelIdeal.Launch
import proofs.«132412_j54778012893659_2_alg».proof.Proof.Gen.KernelIdeal.Skeleton
import proofs.«132412_j54778012893659_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the layer finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current buffer holds its block at every point, whether the block was moved in at that point or at an
    earlier one with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's current buffer holds its block at every point, whether the block was moved in at that point or at an
    earlier one with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input's current buffer holds its block at every point, whether the block was moved in at that point or at an
    earlier one with the same block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- The contraction coordinate is 0 (the accumulator is cleared at this point). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The contraction coordinate is 7 (the result block is stored at this point). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One buffer of the result window, through which its contents are stated. -/
abbrev VO1_3 : View sig .tc .vmem S1024x512 .f32 := (Memref.whole cc1_stg3_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The accumulator: a whole buffer of the layer's own, passed beside the windows. -/
abbrev scM1 : Memref sig .tc .vmem S1024x512 .f32 := Memref.whole cc1_scratch0
abbrev VS1 : View sig .tc .vmem S1024x512 .f32 := (scM1).view

/-- The buffers of the other layer, each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the layer is handed at its first point: the accumulator at some contents, the other layer's buffers, the generator register. -/
theorem PhiA1_split (c : Dev nD) : (Pipeline.ΦA spec1 c : sProp 𝕄)
    ⊢ iprop((∃ d, owns (c : Thread nD τ) scM1 fullShare d) ∗ others1 c ∗ (∃ r, prngReg c r)) := by
  unfold Pipeline.ΦA others1; rw [scopedRest1_eq]; simp only [scM1, owns_whole]
  iintro ⟨⟨H0, H1, H2, H3, H4, H5, H6, H7, H8, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And the same given back. -/
theorem PhiA1_join (c : Dev nD) : iprop((∃ d, owns (c : Thread nD τ) scM1 fullShare d) ∗ others1 c ∗ (∃ r, prngReg c r))
    ⊢ (Pipeline.ΦA spec1 c : sProp 𝕄) := by
  unfold Pipeline.ΦA others1; rw [scopedRest1_eq]; simp only [scM1, owns_whole]
  iintro ⟨HS, ⟨H0, H1, H2, H3, H4, H5, H6, H7, H8⟩, Hg⟩
  isplitl [HS H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

end Cert.KernelIdeal.Hand

end
-- ==== Proof.Ideal.R1RunA.lean ====
/-
  The body of layer 2 run at a point whose contraction coordinate is 0: the accumulator is cleared, the product of the two input blocks is added to it; the result block is left as found.
  The stores each buffer ends with (latest first) are found by running the body; on whole buffers — the inputs at their
  contents, the accumulator at what the point before left — the body runs to its end holding the inputs as they were.
-/
import proofs.«132412_j54778012893659_2_alg».proof.Proof.Ideal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is 0: the accumulator is cleared, the product of the two input blocks is added to it; the result block is left as found. -/
noncomputable def kernelRun1_A (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x512 .f32) (x1 : Vec F S512x512 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.Ideal.R1RunB.lean ====
/-
  The body of layer 2 run at a point whose contraction coordinate is neither 0 nor 7: the product of the two input blocks is added to the accumulator; the result block is left as found.
  The stores each buffer ends with (latest first) are found by running the body; on whole buffers — the inputs at their
  contents, the accumulator at what the point before left — the body runs to its end holding the inputs as they were.
-/
import proofs.«132412_j54778012893659_2_alg».proof.Proof.Ideal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is neither 0 nor 7: the product of the two input blocks is added to the accumulator; the result block is left as found. -/
noncomputable def kernelRun1_B (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x512 .f32) (x1 : Vec F S512x512 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.Ideal.R1RunC.lean ====
/-
  The body of layer 2 run at a point whose contraction coordinate is 7: the product of the two input blocks is added to the accumulator, and the accumulator plus the bias row, passed through the layer's last step, is stored as the result block.
  The stores each buffer ends with (latest first) are found by running the body; on whole buffers — the inputs at their
  contents, the accumulator at what the point before left — the body runs to its end holding the inputs as they were.
-/
import proofs.«132412_j54778012893659_2_alg».proof.Proof.Ideal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose contraction coordinate is 7: the product of the two input blocks is added to the accumulator, and the accumulator plus the bias row, passed through the layer's last step, is stored as the result block. -/
noncomputable def kernelRun1_C (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.Ideal.R1Frame.lean ====
/-
  Layer 2 point by point: what the accumulator and the result block's buffer hold after each grid point — the
  accumulator is cleared when the contraction coordinate is 0, gains the product of the point's two input blocks at
  every point, and at contraction coordinate 7 the result block is made from it and the bias row —, the layer's
  proof data over these contents, and the body's obligation at every point.
-/
import proofs.«132412_j54778012893659_2_alg».proof.Proof.Ideal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The result block's buffer after a point of case A: the stores found there read back (none: the block is left alone, and nothing consults this). -/
def out1_A_3 (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x512 .f32) (x1 : Vec F S512x512 .f32) (x2 : Vec F S1x512 .f32) : Vec F S1024x512 .f32 :=
  VO1_3.read (Elt F) (VO1_3.writes (Elt F) VO1_3.junk (kernelRun1_A c i arg3 harg3 arg4 harg4 arg5 harg5 arg6 harg6 arg7 harg7 hc0 hc1 x0 x1 x2).1)

/-- The stores into the accumulator at a point of case A cover it. -/
theorem scover1_A (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x512 .f32) (x1 : Vec F S512x512 .f32) (x2 : Vec F S1x512 .f32) (y : S1024x512.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x512.size (by sl_kernel_rfl) y

/-- The accumulator after a point of case A: the stores found there read back. -/
def sout1_A (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x512 .f32) (x1 : Vec F S512x512 .f32) (x2 : Vec F S1x512 .f32) : Vec F S1024x512 .f32 :=
  VS1.read (Elt F) (VS1.writes (Elt F) VS1.junk (kernelRun1_A c i arg3 harg3 arg4 harg4 arg5 harg5 arg6 harg6 arg7 harg7 hc0 hc1 x0 x1 x2).2.1)

/-- The result block's buffer after a point of case B: the stores found there read back (none: the block is left alone, and nothing consults this). -/
def out1_B_3 (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x512 .f32) (x1 : Vec F S512x512 .f32) (x2 : Vec F S1x512 .f32) (xs0 : Vec F S1024x512 .f32) : Vec F S1024x512 .f32 :=
  VO1_3.read (Elt F) (VO1_3.writes (Elt F) VO1_3.junk (kernelRun1_B c i arg3 harg3 arg4 harg4 arg5 harg5 arg6 harg6 arg7 harg7 hc0 hc1 x0 x1 x2 xs0).1)

/-- The stores into the accumulator at a point of case B cover it. -/
theorem scover1_B (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x512 .f32) (x1 : Vec F S512x512 .f32) (x2 : Vec F S1x512 .f32) (xs0 : Vec F S1024x512 .f32) (y : S1024x512.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x512.size (by sl_kernel_rfl) y

/-- The accumulator after a point of case B: the stores found there read back. -/
def sout1_B (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x512 .f32) (x1 : Vec F S512x512 .f32) (x2 : Vec F S1x512 .f32) (xs0 : Vec F S1024x512 .f32) : Vec F S1024x512 .f32 :=
  VS1.read (Elt F) (VS1.writes (Elt F) VS1.junk (kernelRun1_B c i arg3 harg3 arg4 harg4 arg5 harg5 arg6 harg6 arg7 harg7 hc0 hc1 x0 x1 x2 xs0).2.1)

/-- The result block's buffer after a point of case C: the stores found there read back. -/
def out1_C_3 (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) : Vec F S1024x512 .f32 :=
  VO1_3.read (Elt F) (VO1_3.writes (Elt F) VO1_3.junk (kernelRun1_C c i arg3 harg3 arg4 harg4 arg5 harg5 arg6 harg6 arg7 harg7 hc0 hc1 x0 x1 x2 xs0).1)

/-- The stores into the accumulator at a point of case C cover it. -/
theorem scover1_C (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) (y : S1024x512.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x512.size (by sl_kernel_rfl) y

/-- The accumulator after a point of case C: the stores found there read back. -/
def sout1_C (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) : Vec F S1024x512 .f32 :=
  VS1.read (Elt F) (VS1.writes (Elt F) VS1.junk (kernelRun1_C c i arg3 harg3 arg4 harg4 arg5 harg5 arg6 harg6 arg7 harg7 hc0 hc1 x0 x1 x2 xs0).2.1)

/-- The store into the result block at a point of case C covers it. -/
theorem cover1_C_3 (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x512 .f32) (x1 : Vec F S512x512 .f32) (x2 : Vec F S1x512 .f32) (xs0 : Vec F S1024x512 .f32) (y : S1024x512.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x512.size (by sl_kernel_rfl) y

/-- THE ACCUMULATION, point by point: the pair (result block's buffer, accumulator) after the body at position `n` —
    the case the contraction coordinate selects, run on the point's input blocks, over the accumulator the point before left. -/
def outsAt1 (c : Dev nD) : (n : ℕ) → n < cfg1.N → Vec F S1024x512 .f32 × Vec F S1024x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the layer keeps between points: before the first point what it was handed; afterwards the accumulator at what
    the point before left in it, the other layer's buffers, the generator register. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ others1 c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ others1 c ∗ (∃ r, prngReg c r)) := by
  cases n with
  | zero => exact absurd rfl hz
  | succ n => rfl

/-- The proof data of the layer on core `c`: the arrays as the layer finds them; after the body at point `t` each
    input's buffer at its block and the result's at the accumulation's first component; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the contraction coordinate says which case the point is
    in; the accumulator comes in at what the point before left (at anything at the very first point) and goes back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [show cfg1.idle 0 (grid1.coords t) = false from rfl], after1_0]
      rw [show (dat1 V c).leavesExact 1 t = owns (c : Thread nD τ) (ms1_1 t) fullShare ((dat1 V c).after 1 t) from by
        unfold Dat.leavesExact; rw [show cfg1.idle 1 (grid1.coords t) = false from rfl], after1_1]
      rw [show (dat1 V c).leavesExact 2 t = owns (c : Thread nD τ) (ms1_2 t) fullShare ((dat1 V c).after 2 t) from by
        unfold Dat.leavesExact; rw [show cfg1.idle 2 (grid1.coords t) = false from rfl], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split c) $$ HΦ
        icases HΦ' with ⟨HS0, Hoth, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, Hoth, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [show cfg1.idle 0 (grid1.coords t) = false from rfl], after1_0]
      rw [show (dat1 V c).leavesExact 1 t = owns (c : Thread nD τ) (ms1_1 t) fullShare ((dat1 V c).after 1 t) from by
        unfold Dat.leavesExact; rw [show cfg1.idle 1 (grid1.coords t) = false from rfl], after1_1]
      rw [show (dat1 V c).leavesExact 2 t = owns (c : Thread nD τ) (ms1_2 t) fullShare ((dat1 V c).after 2 t) from by
        unfold Dat.leavesExact; rw [show cfg1.idle 2 (grid1.coords t) = false from rfl], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      have hz : t.val ≠ 0 := by omega
      rw [PhiS1_castSucc V c t, PhiS1_pos V c _ _ hz]
      iintro ⟨⟨HS0, Hoth, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0]
        · unfold owns; iexists _; isplitr
          swap; · iexact HS0
          ipureintro; exact View.read_writes_of_cover _ _ _ _ _ (scover1_C c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [show cfg1.idle 0 (grid1.coords t) = false from rfl], after1_0]
      rw [show (dat1 V c).leavesExact 1 t = owns (c : Thread nD τ) (ms1_1 t) fullShare ((dat1 V c).after 1 t) from by
        unfold Dat.leavesExact; rw [show cfg1.idle 1 (grid1.coords t) = false from rfl], after1_1]
      rw [show (dat1 V c).leavesExact 2 t = owns (c : Thread nD τ) (ms1_2 t) fullShare ((dat1 V c).after 2 t) from by
        unfold Dat.leavesExact; rw [show cfg1.idle 2 (grid1.coords t) = false from rfl], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨HS0, Hoth, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0]
        · unfold owns; iexists _; isplitr
          swap; · iexact HS0
          ipureintro; exact View.read_writes_of_cover _ _ _ _ _ (scover1_B c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the layer is handed is what it keeps before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the layer gives back what it was handed: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 512 := N_1; omega
  rw [show (dat1 V c).Φ (Fin.last cfg1.N) = PhiS1 V c (Fin.last cfg1.N).val (Nat.le_of_lt_succ (Fin.last cfg1.N).isLt) from rfl, PhiS1_pos V c _ _ ht]
  iintro ⟨HS0, Hoth, Hg⟩
  iapply (PhiA1_join c)
  isplitl [HS0]; · iexists _; iexact HS0
  isplitl [Hoth]; · iexact Hoth
  iexact Hg

end Cert.KernelIdeal.Hand

end
-- ==== Proof.Ideal.Run.lean ====
/-
  The whole program: the two bias rows reshaped, then layer 1, then layer 2 reading layer 1's result array.
  The contents of every unscoped buffer are followed from the launch through the three items; every run of the program
  ends, and the final memory holds each buffer at the last of these contents: each argument as launched, each layer's
  result array at what the layer's write-backs leave.
-/
import proofs.«132412_j54778012893659_2_alg».proof.Proof.Ideal.R0Frame
import proofs.«132412_j54778012893659_2_alg».proof.Proof.Ideal.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes (layer 1's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 1 (layer 2's entry): its result array at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After layer 2. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! The arguments end as launched: the reshapes write only their own results, a layer writes only its result array. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The program's result array at the end: what layer 2's write-backs leave. -/
theorem W3_main_v3 (c : Dev nD) : W3 m ρ c (Proc.devRef .tc main_v3) = (dat1 (V2 m ρ) c).arrAt 3 cfg1.N := W3_arr m ρ c 3
/-- Layer 2's input array: what layer 1's write-backs leave. -/
theorem V2_main_v2 (c : Dev nD) : V2 m ρ c main_v2 = (dat0 (V1 m ρ) c).arrAt 3 cfg0.N := W2_arr m ρ c 3

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V2 m ρ) c
abbrev 𝒱H : Variants := Variants.none
abbrev LH : GSem nD τ sig → Finset Unit := fun _ => ∅
abbrev lvH : GSem nD τ sig → Unit → ℕ := fun _ _ => 0
/-- What rides beside the buffers through every item: the generator register at some state and the core owing nothing. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostOps0_freshH : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What enters layer 1: the generator register and the buffers no window stages (a table, were there one, is let go). -/
theorem hinA0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- And what it gives back. -/
theorem houtA0 (c : Dev nD) : (Pipeline.ΦA spec0 c : sProp 𝕄)
      ⊢ iprop((∃ r, prngReg c r) ∗ emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- What enters layer 2: the generator register and the buffers no window stages (a table, were there one, is let go). -/
theorem hinA1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- And what it gives back. -/
theorem houtA1 (c : Dev nD) : (Pipeline.ΦA spec1 c : sProp 𝕄)
      ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

abbrev TnH (c : Dev nD) : sProp 𝕄 := iprop(StableHlo.held (c : Thread nD τ) (Pipeline.ucRefs τ sig) (W3 m ρ c) ∗ ∃ r, prngReg c r)

set_option backward.isDefEq.respectTransparency.types false in
/-- Layer 1 as a segment of the program: entered from every unscoped buffer at the contents before it, left at the
    contents after it; its arrays split out of the unscoped buffers and put back at what the layer leaves. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hinA0 c _).trans (hin0 (V1 m ρ) c)
  hout c := by
    rw [Pipeline.ownSems0_none]; exact (hout0 (V1 m ρ) c).trans (houtA0 c)
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2 as a segment of the program: entered from every unscoped buffer at the contents before it, left at the
    contents after it; its arrays split out of the unscoped buffers and put back at what the layer leaves. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hinA1 c _).trans (hin1 (V2 m ρ) c)
  hout c := by
    rw [Pipeline.ownSems0_none]; exact (hout1 (V2 m ρ) c).trans (houtA1 c)
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) admH (pdats m ρ) () defs₀ 𝒱H LH lvH) :=
  [ .host (hseg hostOps0 hostOps0_sub hostOps0_freshH (W0 m ρ)),
    .region (reg0 m ρ),
    .region (reg1 m ρ) ]
theorem main_run (c : Dev nD) : main (F := F) c = Pipeline.Seg.run (segsH m ρ) := (main_chain c).trans (by chain_rfl)

set_option backward.isDefEq.respectTransparency.types false in
/-- Every weakly fair execution of the program from memory `m` with zero counters terminates, nothing faulting, and
    every final memory holds each unscoped buffer at the last contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every run ends, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result array named: it ends at what layer 2's write-backs leave. -/
theorem run_value : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.Ideal.Glue.lean ====
/-
  What the two layers are entered with, in terms of the program's arguments: the reshapes before layer 1 leave the
  arguments alone and put each bias vector, as a one-row matrix, in a buffer of its own; layer 1 changes only its own
  result array, so layer 2 finds the second weight matrix and the second bias row as they were.
-/
import proofs.«132412_j54778012893659_2_alg».proof.Proof.Ideal.Run
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ) (ρ : Dev nD → PrngReg)

/-- Layer 1's bias row: the first bias vector as a one-row matrix. -/
theorem V1_main_v0 (c : Dev nD) : V1 m ρ c main_v0 = shapeCast S1x4096 (m ((c : Thread nD τ).loc main_arg2)) shapeCasts_S4096_S1x4096 := by
  dsimp only [V1, W1, hostOps0]; after_results <;> rfl
/-- Layer 2's bias row: the second bias vector as a one-row matrix. -/
theorem V1_main_v1 (c : Dev nD) : V1 m ρ c main_v1 = shapeCast S1x4096 (m ((c : Thread nD τ).loc main_arg4)) shapeCasts_S4096_S1x4096 := by
  dsimp only [V1, W1, hostOps0]; after_results <;> rfl
theorem V1_main_arg0 (c : Dev nD) : V1 m ρ c main_arg0 = m ((c : Thread nD τ).loc main_arg0) := by
  dsimp only [V1, W1, hostOps0]; after_results <;> rfl
theorem V1_main_arg1 (c : Dev nD) : V1 m ρ c main_arg1 = m ((c : Thread nD τ).loc main_arg1) := by
  dsimp only [V1, W1, hostOps0]; after_results <;> rfl
theorem V1_main_arg3 (c : Dev nD) : V1 m ρ c main_arg3 = m ((c : Thread nD τ).loc main_arg3) := by
  dsimp only [V1, W1, hostOps0]; after_results <;> rfl
theorem V2_main_arg3 (c : Dev nD) : V2 m ρ c main_arg3 = V1 m ρ c main_arg3 := W2_of_ne m ρ c main_arg3 (by decide)
theorem V2_main_v1 (c : Dev nD) : V2 m ρ c main_v1 = V1 m ρ c main_v1 := W2_of_ne m ρ c main_v1 (by decide)

/-- A vector as a one-row matrix, read in row 0 at column `j`, is the vector at `j`. -/
theorem row_of_vec {α : Type} (b : S4096.Idx → α) (j : Fin 4096) :
    shapeCast S1x4096 b shapeCasts_S4096_S1x4096 (ValueIdx.ix2 (0 : Fin 1) j) = b (ValueIdx.ix1 j) := by
  refine (shapeCast_addUnit_apply (n := 1) ![4096] b shapeCasts_S4096_S1x4096 (ValueIdx.ix2 (0 : Fin 1) j)).trans (congrArg b ?_)
  funext a
  match a with
  | ⟨0, _⟩ => rfl

end Cert.KernelIdeal.Hand

end
-- ==== Proof.PayIdeal.lean ====
/-
  The pure values the two kernels store, at the exact (extended real) instance, read at one entry (r, n) of a
  1024 × 512 block.

  Each layer's kernel keeps a 1024 × 512 accumulator. It is set to zero (the zero word denotes the extended real 0);
  at every contraction step it becomes the accumulator plus the product of a 1024 × 512 block of the left operand
  with the transpose of a 512 × 512 block of the right operand, whose entry (r, n) is row r of the one against row n
  of the other, ∑ kk, x (r, kk) * w (n, kk); at the last step the bias row is added and the first layer takes the
  maximum with 0, the second layer answers 1 where the sum is above 0 and 0 elsewhere.

  A chain of such steps from the zero accumulator is the double sum over the steps and the positions inside a
  step: addition on the extended reals is commutative and associative with unit 0, and nothing asks any entry to
  be finite.
-/
import proofs.«132412_j54778012893659_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdeal

open Cert.KernelIdeal Cert.KernelIdeal.Gen Idealize.ShloMosaic Idealize.ShloMosaic.ValueIdx

/-! ## The block product: row against row -/

/-- The dimension numbers of the block product, named once. -/
abbrev D : DotDims S1024x512 S512x512 S1024x512 := dot_S1024x512_S512x512_S1024x512_1_1_0_0_n_n

theorem D_lhs0 (i : S1024x512.Idx) (q : D.contr.Idx) : (D.lhsIdx i q 0).val = (i 0).val := by
  unfold DotDims.lhsIdx
  rw [dif_neg (show ¬(0 : Fin S1024x512.rank) ∈ D.lhsBatch by decide),
    dif_pos (show (0 : Fin S1024x512.rank) ∈ D.lhsNonContracting by decide)]
  rfl

theorem D_rhs0 (i : S1024x512.Idx) (q : D.contr.Idx) : (D.rhsIdx i q 0).val = (i 1).val := by
  unfold DotDims.rhsIdx
  rw [dif_neg (show ¬(0 : Fin S512x512.rank) ∈ D.rhsBatch by decide),
    dif_pos (show (0 : Fin S512x512.rank) ∈ D.rhsNonContracting by decide)]
  rfl

/-- The block product into the zero accumulator, at entry (r, n): row r of the left block against row n of the right. -/
theorem matmul_zero_apply (x : FVec Ideal S1024x512 .f32) (w : FVec Ideal S512x512 .f32) (r : Fin 1024) (n : Fin 512) :
    FloatOps.matmul D (some .fp32) x w (constant (F := Ideal) S1024x512 .f32 0x00000000#32) (ix2 r n)
      = ∑ kk : Fin 512, x (ix2 r kk) * w (ix2 n kk) := by
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r n) ((contrEquiv1 D 512 rfl rfl).symm k) = ix2 r k := funext fun a => Fin.ext (by
    match a with
    | ⟨0, _⟩ => exact D_lhs0 _ _
    | ⟨1, _⟩ => exact (D.lhsIdx_val_of_single rfl _ _).trans hk)
  have er : D.rhsIdx (ix2 r n) ((contrEquiv1 D 512 rfl rfl).symm k) = ix2 n k := funext fun a => Fin.ext (by
    match a with
    | ⟨0, _⟩ => exact D_rhs0 _ _
    | ⟨1, _⟩ => exact (D.rhsIdx_val_of_single rfl _ _).trans hk)
  rw [el, er]

/-! ## Layer 1 -/

/-- The value the accumulator is reset to: zero everywhere. -/
theorem k0_pay1_apply (r : Fin 1024) (n : Fin 512) : k0_pay1 (F := Ideal) (ix2 r n) = 0 := by
  unfold k0_pay1
  rw [shapeCast_self]
  exact Ideal.ofBits_zero_f32

/-- One contraction step: the accumulator plus the block product. -/
theorem k0_pay2_apply (v3 : Vec Ideal S1024x512 .f32) (v4 : Vec Ideal S512x512 .f32) (v5 : Vec Ideal S1024x512 .f32)
    (r : Fin 1024) (n : Fin 512) :
    k0_pay2 (F := Ideal) v3 v4 v5 (ix2 r n) = v5 (ix2 r n) + ∑ kk : Fin 512, v3 (ix2 r kk) * v4 (ix2 n kk) := by
  unfold k0_pay2
  rw [shapeCast_self, addf_apply]
  exact congrArg (v5 (ix2 r n) + ·) (matmul_zero_apply v3 v4 r n)

/-- The last step's output: the accumulator plus the bias row, and the maximum with zero. -/
theorem k0_pay3_apply (v14 : Vec Ideal S1024x512 .f32) (v15 : Vec Ideal S1x512 .f32) (r : Fin 1024) (n : Fin 512) :
    k0_pay3 (F := Ideal) v14 v15 (ix2 r n) = max (v14 (ix2 r n) + v15 (ix2 (0 : Fin 1) n)) 0 := by
  unfold k0_pay3
  rw [maximumf_apply, addf_apply, broadcast_apply, shapeCast_self, broadcastTo_1b_ab_apply]
  exact congrArg (max _) Ideal.ofBits_zero_f32

/-! ## Layer 2 -/

theorem k1_pay1_apply (r : Fin 1024) (n : Fin 512) : k1_pay1 (F := Ideal) (ix2 r n) = 0 := by
  unfold k1_pay1
  rw [shapeCast_self]
  exact Ideal.ofBits_zero_f32

theorem k1_pay2_apply (v3 : Vec Ideal S1024x512 .f32) (v5 : Vec Ideal S512x512 .f32) (v6 : Vec Ideal S1024x512 .f32)
    (r : Fin 1024) (n : Fin 512) :
    k1_pay2 (F := Ideal) v3 v5 v6 (ix2 r n) = v6 (ix2 r n) + ∑ kk : Fin 512, v3 (ix2 r kk) * v5 (ix2 n kk) := by
  unfold k1_pay2
  rw [shapeCast_self, shapeCast_self, addf_apply]
  exact congrArg (v6 (ix2 r n) + ·) (matmul_zero_apply v3 v5 r n)

/-- The word "is above zero" converted to a float: 1 where it holds, 0 where it does not. -/
theorem gt_zero_word (a : EReal) :
    FloatOps.sitofp (F := Ideal) .f32
        ((FloatOps.cmpf (F := Ideal) (φ := .f32) .ogt a (Ideal.ofBits .f32 0x00000000#32)).setWidth 32)
      = if 0 < a then 1 else 0 := by
  rw [Ideal.cmpf_def, Ideal.ofBits_zero_f32]
  show (((((Ideal.cmp .ogt a 0).setWidth 32).toInt : ℤ) : ℝ) : EReal) = _
  by_cases h : 0 < a
  · rw [if_pos h, show Ideal.cmp .ogt a 0 = 1#1 by simp [Ideal.cmp, h]]
    norm_num
  · rw [if_neg h, show Ideal.cmp .ogt a 0 = 0#1 by simp [Ideal.cmp, h]]
    norm_num

/-- The last step's output of the second layer: 1 where the accumulator plus the bias row is above zero, else 0. -/
theorem k1_pay3_apply (v15 : Vec Ideal S1024x512 .f32) (v16 : Vec Ideal S1x512 .f32) (r : Fin 1024) (n : Fin 512) :
    k1_pay3 (F := Ideal) v15 v16 (ix2 r n)
      = if 0 < v15 (ix2 r n) + v16 (ix2 (0 : Fin 1) n) then 1 else 0 := by
  unfold k1_pay3
  rw [sitofp_apply, extui_apply, cmpf_apply, addf_apply, broadcast_apply, shapeCast_self, broadcastTo_1b_ab_apply]
  exact gt_zero_word _

end Cert.KernelIdeal.PayIdeal

end
-- ==== Proof.PayIdeal2.lean ====
/-
  A chain of contraction steps from the zero accumulator, at one entry (r, n) of a 1024 × 512 block.

  Step k adds to the accumulator the product of the step's left block with the transpose of the step's right block.
  Starting from zero, after steps 0, …, k the entry is the sum over those steps of the steps' row-against-row sums:
  a sum over a range, formed one term at a time (0 + s = s, and the sum over k + 2 steps is the sum over k + 1 steps
  plus the last term). After all eight steps it is the double sum over the step number and the position in the step.
-/
import proofs.«132412_j54778012893659_2_alg».proof.Proof.PayIdeal

noncomputable section

namespace Cert.KernelIdeal.PayIdeal

open Cert.KernelIdeal Cert.KernelIdeal.Gen Idealize.ShloMosaic Idealize.ShloMosaic.ValueIdx

/-! ## Layer 1 -/

/-- Layer 1's accumulator after steps 0, …, k, the left and right blocks of step kb being xs kb and ws kb. -/
def acc0 (xs : ℕ → Vec Ideal S1024x512 .f32) (ws : ℕ → Vec Ideal S512x512 .f32) : ℕ → Vec Ideal S1024x512 .f32
  | 0 => k0_pay2 (F := Ideal) (xs 0) (ws 0) (k0_pay1 (F := Ideal))
  | k + 1 => k0_pay2 (F := Ideal) (xs (k + 1)) (ws (k + 1)) (acc0 xs ws k)

theorem acc0_zero (xs : ℕ → Vec Ideal S1024x512 .f32) (ws : ℕ → Vec Ideal S512x512 .f32) :
    acc0 xs ws 0 = k0_pay2 (F := Ideal) (xs 0) (ws 0) (k0_pay1 (F := Ideal)) := rfl

theorem acc0_succ (xs : ℕ → Vec Ideal S1024x512 .f32) (ws : ℕ → Vec Ideal S512x512 .f32) (k : ℕ) :
    acc0 xs ws (k + 1) = k0_pay2 (F := Ideal) (xs (k + 1)) (ws (k + 1)) (acc0 xs ws k) := rfl

/-- Its entry (r, n): the sum over the steps so far of row r of the step's left block against row n of its right block. -/
theorem acc0_apply (xs : ℕ → Vec Ideal S1024x512 .f32) (ws : ℕ → Vec Ideal S512x512 .f32) (k : ℕ)
    (r : Fin 1024) (n : Fin 512) :
    acc0 xs ws k (ix2 r n)
      = ∑ kb ∈ Finset.range (k + 1), ∑ kk : Fin 512, xs kb (ix2 r kk) * ws kb (ix2 n kk) := by
  induction k with
  | zero => rw [acc0_zero, k0_pay2_apply, k0_pay1_apply, zero_add, Finset.sum_range_one]
  | succ k ih => rw [acc0_succ, k0_pay2_apply, ih, Finset.sum_range_succ (n := k + 1)]

/-- After all eight steps: the double sum over the step number and the position inside the step. -/
theorem acc0_seven (xs : ℕ → Vec Ideal S1024x512 .f32) (ws : ℕ → Vec Ideal S512x512 .f32)
    (xf : Fin 8 → Vec Ideal S1024x512 .f32) (wf : Fin 8 → Vec Ideal S512x512 .f32)
    (hx : ∀ kb : Fin 8, xs kb.val = xf kb) (hw : ∀ kb : Fin 8, ws kb.val = wf kb) (r : Fin 1024) (n : Fin 512) :
    acc0 xs ws 7 (ix2 r n) = ∑ kb : Fin 8, ∑ kk : Fin 512, xf kb (ix2 r kk) * wf kb (ix2 n kk) := by
  rw [acc0_apply, Finset.sum_range]
  exact Finset.sum_congr rfl fun kb _ => by rw [hx kb, hw kb]

/-! ## Layer 2 -/

/-- Layer 2's accumulator after steps 0, …, k. -/
def acc1 (xs : ℕ → Vec Ideal S1024x512 .f32) (ws : ℕ → Vec Ideal S512x512 .f32) : ℕ → Vec Ideal S1024x512 .f32
  | 0 => k1_pay2 (F := Ideal) (xs 0) (ws 0) (k1_pay1 (F := Ideal))
  | k + 1 => k1_pay2 (F := Ideal) (xs (k + 1)) (ws (k + 1)) (acc1 xs ws k)

theorem acc1_zero (xs : ℕ → Vec Ideal S1024x512 .f32) (ws : ℕ → Vec Ideal S512x512 .f32) :
    acc1 xs ws 0 = k1_pay2 (F := Ideal) (xs 0) (ws 0) (k1_pay1 (F := Ideal)) := rfl

theorem acc1_succ (xs : ℕ → Vec Ideal S1024x512 .f32) (ws : ℕ → Vec Ideal S512x512 .f32) (k : ℕ) :
    acc1 xs ws (k + 1) = k1_pay2 (F := Ideal) (xs (k + 1)) (ws (k + 1)) (acc1 xs ws k) := rfl

theorem acc1_apply (xs : ℕ → Vec Ideal S1024x512 .f32) (ws : ℕ → Vec Ideal S512x512 .f32) (k : ℕ)
    (r : Fin 1024) (n : Fin 512) :
    acc1 xs ws k (ix2 r n)
      = ∑ kb ∈ Finset.range (k + 1), ∑ kk : Fin 512, xs kb (ix2 r kk) * ws kb (ix2 n kk) := by
  induction k with
  | zero => rw [acc1_zero, k1_pay2_apply, k1_pay1_apply, zero_add, Finset.sum_range_one]
  | succ k ih => rw [acc1_succ, k1_pay2_apply, ih, Finset.sum_range_succ (n := k + 1)]

theorem acc1_seven (xs : ℕ → Vec Ideal S1024x512 .f32) (ws : ℕ → Vec Ideal S512x512 .f32)
    (xf : Fin 8 → Vec Ideal S1024x512 .f32) (wf : Fin 8 → Vec Ideal S512x512 .f32)
    (hx : ∀ kb : Fin 8, xs kb.val = xf kb) (hw : ∀ kb : Fin 8, ws kb.val = wf kb) (r : Fin 1024) (n : Fin 512) :
    acc1 xs ws 7 (ix2 r n) = ∑ kb : Fin 8, ∑ kk : Fin 512, xf kb (ix2 r kk) * wf kb (ix2 n kk) := by
  rw [acc1_apply, Finset.sum_range]
  exact Finset.sum_congr rfl fun kb _ => by rw [hx kb, hw kb]

end Cert.KernelIdeal.PayIdeal

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.Spec.lean ====
/-
  A two-layer perceptron with a threshold readout, on the extended reals, index by index.

  For x : [8192, 4096], W₁, W₂ : [4096, 4096] and b₁, b₂ : [4096] the hidden activation is
  h (r, j) = max ((∑ k, x (r, k) * W₁ (j, k)) + b₁ j) 0 (row r of x against row j of W₁: the entry of x · W₁ᵀ, plus the
  bias of column j, clipped below at zero) and the result is 1 where (∑ k, h (r, k) * W₂ (j, k)) + b₂ j is above zero and
  0 elsewhere. Every sum is a finite sum in the commutative monoid of the extended reals, so it may be regrouped freely:
  no entry is asked to be finite.

  Besides the function itself the file holds the algebra a blocked evaluation needs: a sum over 4096 terms is the sum
  over 8 blocks of the sums over the 512 terms of each block; a running total started at zero that adds one block's sum
  per step holds, after step n, the sum of the blocks 0 … n; and the two ways a comparison's bit becomes a number
  (read unsigned; widened with zeros and read signed) both give the indicator 1 / 0.
-/
import Idealize.ShloMosaic.PureOps.Ideal
import Idealize.ShloMosaic.PureOps.Ideal.Laws
import Idealize.ShloMosaic.Lib.ValueIdx
import proofs.«132412_j54778012893659_2_alg».proof.Proof.LibSumBlocks

noncomputable section

namespace Cert.Spec

open Idealize.ShloMosaic Idealize.ShloMosaic.ValueIdx

/-- The shapes: activations [8192, 4096], weights [4096, 4096], biases [4096]. -/
abbrev SX : Shape := ⟨2, ![8192, 4096]⟩
abbrev SW : Shape := ⟨2, ![4096, 4096]⟩
abbrev SB : Shape := ⟨1, ![4096]⟩

/-- The hidden activation: `max (x · W₁ᵀ + b₁) 0`, entry by entry. -/
def hidden (x : SX.Idx → EReal) (W1 : SW.Idx → EReal) (b1 : SB.Idx → EReal) : SX.Idx → EReal :=
  fun i => max ((∑ k : Fin 4096, x (ix2 (i 0) k) * W1 (ix2 (i 1) k)) + b1 (ix1 (i 1))) 0

/-- The readout: 1 where `h · W₂ᵀ + b₂` is above zero, 0 elsewhere. -/
def spikes (h : SX.Idx → EReal) (W2 : SW.Idx → EReal) (b2 : SB.Idx → EReal) : SX.Idx → EReal :=
  fun i => if 0 < (∑ k : Fin 4096, h (ix2 (i 0) k) * W2 (ix2 (i 1) k)) + b2 (ix1 (i 1)) then 1 else 0

/-- The whole function of the five arrays. -/
def G (x : SX.Idx → EReal) (W1 : SW.Idx → EReal) (b1 : SB.Idx → EReal) (W2 : SW.Idx → EReal) (b2 : SB.Idx → EReal) :
    SX.Idx → EReal :=
  spikes (hidden x W1 b1) W2 b2

theorem hidden_ix2 (x : SX.Idx → EReal) (W1 : SW.Idx → EReal) (b1 : SB.Idx → EReal) (r : Fin 8192) (j : Fin 4096) :
    hidden x W1 b1 (ix2 r j) = max ((∑ k : Fin 4096, x (ix2 r k) * W1 (ix2 j k)) + b1 (ix1 j)) 0 := rfl

theorem spikes_ix2 (h : SX.Idx → EReal) (W2 : SW.Idx → EReal) (b2 : SB.Idx → EReal) (r : Fin 8192) (j : Fin 4096) :
    spikes h W2 b2 (ix2 r j) = if 0 < (∑ k : Fin 4096, h (ix2 r k) * W2 (ix2 j k)) + b2 (ix1 j) then 1 else 0 := rfl

theorem G_ix2 (x : SX.Idx → EReal) (W1 : SW.Idx → EReal) (b1 : SB.Idx → EReal) (W2 : SW.Idx → EReal)
    (b2 : SB.Idx → EReal) (r : Fin 8192) (j : Fin 4096) :
    G x W1 b1 W2 b2 (ix2 r j)
      = if 0 < (∑ k : Fin 4096, hidden x W1 b1 (ix2 r k) * W2 (ix2 j k)) + b2 (ix1 j) then 1 else 0 := rfl

/-! ## Regrouping a sum of 4096 terms into 8 blocks of 512 -/

/-- Position `kk` of block `kb` is below 4096. -/
theorem blk_lt (kb : Fin 8) (kk : Fin 512) : kb.val * 512 + kk.val < 4096 := by
  have := kb.isLt; have := kk.isLt; omega

/-- Position `kk` of block `kb`, as an index below 4096. -/
abbrev blk (kb : Fin 8) (kk : Fin 512) : Fin 4096 := ⟨kb.val * 512 + kk.val, blk_lt kb kk⟩

/-- A sum of 4096 terms, block by block. -/
theorem sum_blocks {M : Type*} [AddCommMonoid M] (f : Fin 4096 → M) :
    ∑ k : Fin 4096, f k = ∑ kb : Fin 8, ∑ kk : Fin 512, f (blk kb kk) :=
  Cert.SumBlocks.sum_fin_blocks 8 512 rfl f

/-- A row-against-row sum over 4096 columns, block by block. -/
theorem rowdot_blocks {A B : Nat} (a : (⟨2, ![A, 4096]⟩ : Shape).Idx → EReal) (w : (⟨2, ![B, 4096]⟩ : Shape).Idx → EReal)
    (r : Fin A) (j : Fin B) :
    ∑ k : Fin 4096, a (ix2 r k) * w (ix2 j k)
      = ∑ kb : Fin 8, ∑ kk : Fin 512, a (ix2 r (blk kb kk)) * w (ix2 j (blk kb kk)) :=
  sum_blocks fun k => a (ix2 r k) * w (ix2 j k)

/-! ## A running total -/

/-- The running total of `s`: it starts as zero plus the first term and adds one term per step. -/
def runTotal {M : Type*} [AddCommMonoid M] (s : ℕ → M) : ℕ → M
  | 0 => 0 + s 0
  | n + 1 => runTotal s n + s (n + 1)

theorem runTotal_zero {M : Type*} [AddCommMonoid M] (s : ℕ → M) : runTotal s 0 = 0 + s 0 := rfl
theorem runTotal_succ {M : Type*} [AddCommMonoid M] (s : ℕ → M) (n : ℕ) :
    runTotal s (n + 1) = runTotal s n + s (n + 1) := rfl

/-- After step `n` the running total is the sum of the terms 0 … n. -/
theorem runTotal_eq_sum {M : Type*} [AddCommMonoid M] (s : ℕ → M) (n : ℕ) :
    runTotal s n = ∑ k ∈ Finset.range (n + 1), s k := by
  induction n with
  | zero => rw [runTotal_zero, zero_add, Finset.sum_range_one]
  | succ n ih => rw [runTotal_succ, ih, Finset.sum_range_succ _ (n + 1)]

/-- After the eighth step (step 7) the running total of a family given below 8 by `f` is the sum of `f` over the 8 blocks. -/
theorem runTotal_seven {M : Type*} [AddCommMonoid M] (s : ℕ → M) (f : Fin 8 → M) (h : ∀ kb : Fin 8, s kb.val = f kb) :
    runTotal s 7 = ∑ kb : Fin 8, f kb := by
  rw [runTotal_eq_sum]
  exact Cert.SumBlocks.sum_range_eq_sum_fin 8 s f h

/-! ## A comparison's bit as a number -/

/-- The bit of "`v` is above zero", read unsigned, is the indicator. -/
theorem uitofp_ogt_zero (v z : Ideal .f32) (hz : z = 0) :
    FloatOps.uitofp (F := Ideal) .f32 (FloatOps.cmpf .ogt v z) = if 0 < v then 1 else 0 := by
  subst hz
  show (((Ideal.cmp .ogt v 0).toNat : ℝ) : EReal) = _
  unfold Ideal.cmp
  by_cases h : (0 : EReal) < v <;> simp [h]

/-- The same bit widened with zeros to 32 bits and read signed is the indicator too. -/
theorem sitofp_extui_ogt_zero (v z : Ideal .f32) (hz : z = 0) :
    FloatOps.sitofp (F := Ideal) .f32 ((FloatOps.cmpf .ogt v z).setWidth 32) = if 0 < v then 1 else 0 := by
  subst hz
  show ((((Ideal.cmp .ogt v 0).setWidth 32).toInt : ℝ) : EReal) = _
  unfold Ideal.cmp
  by_cases h : (0 : EReal) < v <;> simp [h]

end Cert.Spec

end
-- ==== Proof.Ideal.R0Value.lean ====
/-
  Layer 1's value: what the accumulator and the result block hold after each grid point, and the array the layer
  leaves.

  The grid is 8 × 8 × 8 (row block i, column block j, contraction block k, the last running fastest). At a point the
  body adds to the 1024 × 512 accumulator the product of block (i, k) of x with the transpose of block (j, k) of W₁;
  the accumulator starts from zero at k = 0, so after the point with contraction coordinate k it holds, at entry
  (r, n), the sum over the steps 0 … k of row r of the step's x block against row n of the step's W₁ block. At k = 7
  the result block is the maximum with 0 of the accumulator plus the bias row. A block's entry sits in its array at
  block index × block size + the coordinate inside the block, so entry (r, n) of result block (i, j) is the hidden
  activation at (1024 i + r, 512 j + n): the eight steps' sums regroup into the one sum over the 4096 columns, and
  every entry of the result array lies in exactly the block its coordinates name.
-/
import proofs.«132412_j54778012893659_2_alg».proof.Proof.Ideal.R0Frame
import proofs.«132412_j54778012893659_2_alg».proof.Proof.PayIdeal2
import proofs.«132412_j54778012893659_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What each case of the body leaves, over any float values -/

section Pieces
variable {F : FTy → Type} [FloatOps F]

/-- A block read or written from its first entry on is read or written whole. -/
theorem hz00 : (![0, 0] : Fin 2 → Nat) = fun _ => 0 := funext fun a => by fin_cases a <;> rfl

/-- Contraction coordinate 0: the accumulator is left at zero plus the product of the point's two blocks. -/
theorem sout0_A_eq (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S1x512 .f32) :
    sout0_A c i arg3 harg3 arg4 harg4 arg5 harg5 arg6 harg6 arg7 harg7 hc0 hc1 x0 x1 x2 = k0_pay2 x0 x1 (k0_pay1 (F := F)) := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero (S := S1024x512) hz00, View.readCov_unit_zero (S := S1024x512) _ hz00]
  simp only [View.readAt_eq_ld, harg3.read_unread, harg4.read_unread, View.ld_unit_zero (S := S1024x512) hz00,
    View.ld_unit_zero (S := S512x512) hz00]

/-- Contraction coordinate 1 … 6: the accumulator found plus the product of the point's two blocks. -/
theorem sout0_B_eq (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S1x512 .f32) (xs0 : Vec F S1024x512 .f32) :
    sout0_B c i arg3 harg3 arg4 harg4 arg5 harg5 arg6 harg6 arg7 harg7 hc0 hc1 x0 x1 x2 xs0 = k0_pay2 x0 x1 xs0 := by
  unfold sout0_B
  rw [View.read_writes_eq_canon _ _ _ (scover0_B c i arg3 harg3 arg4 harg4 arg5 harg5 arg6 harg6 arg7 harg7 hc0 hc1 x0 x1 x2 xs0)]
  unfold kernelRun0_B
  dsimp only
  rw [View.canon_unit_zero hz00]
  simp only [View.readAt_eq_ld, harg3.read_unread, harg4.read_unread, harg7.read_unread,
    View.ld_unit_zero (S := S1024x512) hz00, View.ld_unit_zero (S := S512x512) hz00]

/-- Contraction coordinate 7: the accumulator likewise, -/
theorem sout0_C_eq (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) :
    sout0_C c i arg3 harg3 arg4 harg4 arg5 harg5 arg6 harg6 arg7 harg7 hc0 hc1 x0 x1 x2 xs0 = k0_pay2 x0 x1 xs0 := by
  unfold sout0_C
  rw [View.read_writes_eq_canon _ _ _ (scover0_C c i arg3 harg3 arg4 harg4 arg5 harg5 arg6 harg6 arg7 harg7 hc0 hc1 x0 x1 x2 xs0)]
  unfold kernelRun0_C
  dsimp only
  sl_unfold_words
  rw [View.canon_unit_zero hz00]
  simp only [View.readAt_eq_ld, harg3.read_unread, harg4.read_unread, harg7.read_unread,
    View.ld_unit_zero (S := S1024x512) hz00, View.ld_unit_zero (S := S512x512) hz00]

/-- and the result block: the layer's last step of that accumulator and the bias row. -/
theorem out0_C_3_eq (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S1x512 .f32) (xs0 : Vec F S1024x512 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz00, View.readCov_unit_zero (S := S1024x512) _ hz00]
  simp only [View.readAt_eq_ld, harg3.read_unread, harg4.read_unread, harg5.read_unread, harg7.read_unread,
    View.ld_unit_zero (S := S1024x512) hz00, View.ld_unit_zero (S := S512x512) hz00, View.ld_unit_zero (S := S1x512) hz00]

end Pieces

/-! ## Point by point -/

section Steps
variable {F : FTy → Type} [FloatOps F]
variable (V : (c : Dev nD) → (b : Ref sig .tc) → Buf (Elt F) ((c : Thread nD τ).loc b))

/-- The contents after a position do not depend on how the position is written. -/
theorem outsAt0_congr (c : Dev nD) {n n' : ℕ} (e : n = n') (h : n < cfg0.N) (h' : n' < cfg0.N) :
    outsAt0 V c n h = outsAt0 V c n' h' := by subst e; rfl

/-- Contraction coordinate 0: the accumulator restarts from zero. -/
theorem acc0_at_zero (c : Dev nD) (t : Fin cfg0.N) (h0 : t.val % 8 = 0) :
    (outsAt0 V c t.val t.isLt).2 = k0_pay2 (iblk0 V c 0 t) (iblk0 V c 1 t) (k0_pay1 (F := F)) := by
  have h1 : ¬t.val % 8 = 7 := by omega
  rw [outsAt0_A V c t h0 h1]
  dsimp only
  exact sout0_A_eq c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)

/-- Any other contraction coordinate: one more step on what the point before left. -/
theorem acc0_at_succ (c : Dev nD) (t : Fin cfg0.N) (h0 : ¬t.val % 8 = 0) :
    (outsAt0 V c t.val t.isLt).2 = k0_pay2 (iblk0 V c 0 t) (iblk0 V c 1 t) (outsAt0 V c (t.val - 1) (Nat.lt_of_le_of_lt (Nat.sub_le _ _) t.isLt)).2 := by
  by_cases h1 : t.val % 8 = 7
  · rw [outsAt0_C V c t h0 h1]
    dsimp only
    exact sout0_C_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2
  · rw [outsAt0_B V c t h0 h1]
    dsimp only
    exact sout0_B_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2

/-- Contraction coordinate 7: the result block is the layer's last step of the accumulator just left and the bias row. -/
theorem out0_at_seven (c : Dev nD) (t : Fin cfg0.N) (h1 : t.val % 8 = 7) :
    (outsAt0 V c t.val t.isLt).1 = k0_pay3 (outsAt0 V c t.val t.isLt).2 (iblk0 V c 2 t) := by
  have h0 : ¬t.val % 8 = 0 := by omega
  rw [outsAt0_C V c t h0 h1]
  dsimp only
  refine (out0_C_3_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2).trans ?_
  exact congrArg (fun a => k0_pay3 a (iblk0 V c 2 t))
    (sout0_C_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2).symm

end Steps

section AtIdeal
variable (V : (c : Dev nD) → (b : Ref sig .tc) → Buf (Elt Ideal) ((c : Thread nD τ).loc b))

/-- The x block and the W₁ block of the point at position n (zero beyond the grid: never consulted). -/
def xblk0 (c : Dev nD) (n : ℕ) : Vec Ideal S1024x512 .f32 :=
  if h : n < cfg0.N then iblk0 V c 0 ⟨n, h⟩ else fun _ => (0 : EReal)
def wblk0 (c : Dev nD) (n : ℕ) : Vec Ideal S512x512 .f32 :=
  if h : n < cfg0.N then iblk0 V c 1 ⟨n, h⟩ else fun _ => (0 : EReal)

theorem xblk0_of_lt (c : Dev nD) (n : ℕ) (h : n < cfg0.N) : xblk0 V c n = iblk0 V c 0 ⟨n, h⟩ := dif_pos h
theorem wblk0_of_lt (c : Dev nD) (n : ℕ) (h : n < cfg0.N) : wblk0 V c n = iblk0 V c 1 ⟨n, h⟩ := dif_pos h

/-- The accumulator after the point at position b + k, b a multiple of 8 and k < 8: the chain of the steps 0 … k
    over the blocks of the points b, b + 1, …, b + k. -/
theorem acc0_eq (c : Dev nD) (b : ℕ) (hb : b % 8 = 0) : ∀ (k : ℕ) (hk : k < 8) (hn : b + k < cfg0.N),
    (outsAt0 V c (b + k) hn).2
      = PayIdeal.acc0 (fun kb => xblk0 V c (b + kb)) (fun kb => wblk0 V c (b + kb)) k
  | 0, _, hn => by
    rw [PayIdeal.acc0_zero]
    beta_reduce
    rw [xblk0_of_lt V c (b + 0) hn, wblk0_of_lt V c (b + 0) hn]
    exact acc0_at_zero V c ⟨b + 0, hn⟩ (show (b + 0) % 8 = 0 by omega)
  | k + 1, hk, hn => by
    rw [PayIdeal.acc0_succ]
    beta_reduce
    rw [xblk0_of_lt V c (b + (k + 1)) hn, wblk0_of_lt V c (b + (k + 1)) hn,
      ← acc0_eq c b hb k (by omega) (by omega)]
    refine (acc0_at_succ V c ⟨b + (k + 1), hn⟩ (show ¬(b + (k + 1)) % 8 = 0 by omega)).trans ?_
    exact congrArg (fun a => k0_pay2 (F := Ideal) (iblk0 V c 0 ⟨b + (k + 1), hn⟩) (iblk0 V c 1 ⟨b + (k + 1), hn⟩) a.2)
      (outsAt0_congr V c (show b + (k + 1) - 1 = b + k by omega) _ _)

end AtIdeal

/-! ## Blocks read off their arrays -/

section Blocks
variable {F : FTy → Type} [FloatOps F]
variable (V : (c : Dev nD) → (b : Ref sig .tc) → Buf (Elt F) ((c : Thread nD τ).loc b))

/-- The block indices at the point at position t = 64 i + 8 j + k: x's block is (i, k), W₁'s is (j, k), the bias
    row's is (0, j), the result's is (i, j). -/
theorem idx_facts0 : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = 0 ∧ win0_2.index t (1 : Fin 2) = t.val / 8 % 8
    ∧ win0_3.index t (0 : Fin 2) = t.val / 64 ∧ win0_3.index t (1 : Fin 2) = t.val / 8 % 8 :=
  (by decide +kernel : ∀ t : Fin grid0.N, _)

/-- Entry (r, kk) of x's block at a point is x at (1024 i + r, 512 k + kk). -/
theorem iblk0_0_apply (c : Dev nD) (t : Fin cfg0.N) (r : Fin 1024) (kk : Fin 512) (R : Fin 8192) (K : Fin 4096)
    (hR : R.val = t.val / 64 * 1024 + r.val) (hK : K.val = t.val % 8 * 512 + kk.val) :
    (iblk0 V c 0 t : Vec F S1024x512 .f32) (ix2 r kk) = (V c main_arg0 : S8192x4096.Idx → Elt F .f32) (ix2 R K) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 1024 + 1 * r.val = R.val; rw [e0, hR]; omega
  | ⟨1, _⟩ => show win0_0.index t (1 : Fin 2) * 512 + 1 * kk.val = K.val; rw [e1, hK]; omega

/-- Entry (n, kk) of W₁'s block at a point is W₁ at (512 j + n, 512 k + kk). -/
theorem iblk0_1_apply (c : Dev nD) (t : Fin cfg0.N) (n : Fin 512) (kk : Fin 512) (J : Fin 4096) (K : Fin 4096)
    (hJ : J.val = t.val / 8 % 8 * 512 + n.val) (hK : K.val = t.val % 8 * 512 + kk.val) :
    (iblk0 V c 1 t : Vec F S512x512 .f32) (ix2 n kk) = (V c main_arg1 : S4096x4096.Idx → Elt F .f32) (ix2 J K) := by
  obtain ⟨-, -, e0, e1, -⟩ := idx_facts0 t
  unfold iblk0
  rw [View.read_apply]
  show V c main_arg1 _ = V c main_arg1 _
  refine congrArg (V c main_arg1) (funext fun a => Fin.ext ?_)
  match a with
  | ⟨0, _⟩ => show win0_1.index t (0 : Fin 2) * 512 + 1 * n.val = J.val; rw [e0, hJ]; omega
  | ⟨1, _⟩ => show win0_1.index t (1 : Fin 2) * 512 + 1 * kk.val = K.val; rw [e1, hK]; omega

/-- Entry (0, n) of the bias row's block at a point is the bias row at (0, 512 j + n). -/
theorem iblk0_2_apply (c : Dev nD) (t : Fin cfg0.N) (n : Fin 512) (J : Fin 4096)
    (hJ : J.val = t.val / 8 % 8 * 512 + n.val) :
    (iblk0 V c 2 t : Vec F S1x512 .f32) (ix2 (0 : Fin 1) n) = (V c main_v0 : S1x4096.Idx → Elt F .f32) (ix2 (0 : Fin 1) J) := by
  obtain ⟨-, -, -, -, e0, e1, -⟩ := idx_facts0 t
  unfold iblk0
  rw [View.read_apply]
  show V c main_v0 _ = V c main_v0 _
  refine congrArg (V c main_v0) (funext fun a => Fin.ext ?_)
  match a with
  | ⟨0, _⟩ => show win0_2.index t (0 : Fin 2) * 1 + 1 * 0 = 0; rw [e0]
  | ⟨1, _⟩ => show win0_2.index t (1 : Fin 2) * 512 + 1 * n.val = J.val; rw [e1, hJ]; omega

end Blocks

/-! ## The result block's entries, and the array the layer leaves -/

/-- The hidden activation with the bias kept as a one-row array: at (R, J) the maximum with 0 of row R of x against
    row J of W₁ plus the bias row's entry J. -/
def hidden0' (x : S8192x4096.Idx → EReal) (W1 : S4096x4096.Idx → EReal) (b : S1x4096.Idx → EReal) : S8192x4096.Idx → EReal :=
  fun idx => max ((∑ k : Fin 4096, x (ix2 (idx 0) k) * W1 (ix2 (idx 1) k)) + b (ix2 (0 : Fin 1) (idx 1))) 0

theorem hidden0'_ix2 (x : S8192x4096.Idx → EReal) (W1 : S4096x4096.Idx → EReal) (b : S1x4096.Idx → EReal)
    (R : Fin 8192) (J : Fin 4096) :
    hidden0' x W1 b (ix2 R J) = max ((∑ k : Fin 4096, x (ix2 R k) * W1 (ix2 J k)) + b (ix2 (0 : Fin 1) J)) 0 := rfl

/-- With the bias row read off a vector it is the hidden activation of the specification. -/
theorem hidden0'_eq_hidden (x : S8192x4096.Idx → EReal) (W1 : S4096x4096.Idx → EReal) (b : S1x4096.Idx → EReal)
    (b1 : Cert.Spec.SB.Idx → EReal) (hb : ∀ j : Fin 4096, b (ix2 (0 : Fin 1) j) = b1 (ix1 j)) :
    hidden0' x W1 b = Cert.Spec.hidden x W1 b1 :=
  funext fun idx => congrArg (fun s => max ((∑ k : Fin 4096, x (ix2 (idx 0) k) * W1 (ix2 (idx 1) k)) + s) 0) (hb (idx 1))

section Value
variable (V : (c : Dev nD) → (b : Ref sig .tc) → Buf (Elt Ideal) ((c : Thread nD τ).loc b))

/-- Entry (r, n) of the result block stored at a point with contraction coordinate 7 is the hidden activation at
    (1024 i + r, 512 j + n): the eight steps' sums are the one sum over the 4096 columns, block by block. -/
theorem out0_entry (c : Dev nD) (t : Fin cfg0.N) (h7 : t.val % 8 = 7) (r : Fin 1024) (n : Fin 512) (R : Fin 8192) (J : Fin 4096)
    (hR : R.val = t.val / 64 * 1024 + r.val) (hJ : J.val = t.val / 8 % 8 * 512 + n.val) :
    (outsAt0 V c t.val t.isLt).1 (ix2 r n)
      = hidden0' (V c main_arg0 : S8192x4096.Idx → EReal) (V c main_arg1 : S4096x4096.Idx → EReal)
          (V c main_v0 : S1x4096.Idx → EReal) (ix2 R J) := by
  have hN : cfg0.N = 512 := N_0
  have ht : t.val < 512 := hN ▸ t.isLt
  have hb : (t.val - 7) % 8 = 0 := by omega
  have lt512 : ∀ x : ℕ, x < 512 → x < cfg0.N := fun x h => Nat.lt_of_lt_of_eq h hN.symm
  have hlt : t.val - 7 + 7 < cfg0.N := lt512 _ (by omega)
  have hacc : (outsAt0 V c t.val t.isLt).2
      = PayIdeal.acc0 (fun kb => xblk0 V c (t.val - 7 + kb)) (fun kb => wblk0 V c (t.val - 7 + kb)) 7 :=
    (congrArg Prod.snd (outsAt0_congr V c (show t.val = t.val - 7 + 7 by omega) t.isLt hlt)).trans
      (acc0_eq V c (t.val - 7) hb 7 (by omega) hlt)
  rw [out0_at_seven V c t h7, hacc]
  refine (PayIdeal.k0_pay3_apply _ (iblk0 V c 2 t) r n).trans ?_
  rw [PayIdeal.acc0_seven _ _ (fun kb : Fin 8 => xblk0 V c (t.val - 7 + kb.val)) (fun kb : Fin 8 => wblk0 V c (t.val - 7 + kb.val))
    (fun _ => rfl) (fun _ => rfl) r n]
  rw [hidden0'_ix2, Cert.Spec.rowdot_blocks, iblk0_2_apply V c t n J hJ]
  refine congrArg (fun s => max (s + _) 0) (Finset.sum_congr rfl fun kb _ => Finset.sum_congr rfl fun kk _ => ?_)
  have hkb : kb.val < 8 := kb.isLt
  have hp : t.val - 7 + kb.val < cfg0.N := lt512 _ (by omega)
  rw [xblk0_of_lt V c _ hp, wblk0_of_lt V c _ hp]
  rw [iblk0_0_apply V c ⟨t.val - 7 + kb.val, hp⟩ r kk R (Cert.Spec.blk kb kk)
      (by show R.val = (t.val - 7 + kb.val) / 64 * 1024 + r.val; omega)
      (by show kb.val * 512 + kk.val = (t.val - 7 + kb.val) % 8 * 512 + kk.val; omega),
    iblk0_1_apply V c ⟨t.val - 7 + kb.val, hp⟩ n kk J (Cert.Spec.blk kb kk)
      (by show J.val = (t.val - 7 + kb.val) / 8 % 8 * 512 + n.val; omega)
      (by show kb.val * 512 + kk.val = (t.val - 7 + kb.val) % 8 * 512 + kk.val; omega)]

/-- An index of the result array is in the block of the point at position t exactly when each coordinate is in the block's range. -/
theorem mem_blk0 (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- What a point with contraction coordinate 7 writes back is its block of the hidden activation. -/
theorem flushed_eq0 (c : Dev nD) (t : Fin cfg0.N) (hf : (cfg0.win 3).flush t = true) :
    (dat0 V c).flushed 3 t = ((cfg0.win 3).blk t).view.read (Elt Ideal)
      (hidden0' (V c main_arg0 : S8192x4096.Idx → EReal) (V c main_arg1 : S4096x4096.Idx → EReal) (V c main_v0 : S1x4096.Idx → EReal)) := by
  have h7 : t.val % 8 = 7 := (flush0_3 t).mp hf
  have hN : cfg0.N = 512 := N_0
  have ht : t.val < 512 := hN ▸ t.isLt
  obtain ⟨-, -, -, -, -, -, e0, e1⟩ := idx_facts0 t
  show (cfg0.win 3).cut (grid0.coords t) ((dat0 V c).after 3 t) = _
  rw [after0_3]
  funext y
  obtain ⟨r, n, rfl⟩ : ∃ (r : Fin 1024) (n : Fin 512), y = ix2 r n := ⟨y 0, y 1, eq_ix2 y⟩
  have hr : r.val < 1024 := r.isLt
  have hn : n.val < 512 := n.isLt
  rw [View.read_apply]
  show (outsAt0 V c t.val t.isLt).1 (ix2 r n) = hidden0' _ _ _ (((cfg0.win 3).blk t).view.emb (ix2 r n))
  rw [show ((cfg0.win 3).blk t).view.emb (ix2 r n)
      = (ix2 (⟨t.val / 64 * 1024 + r.val, by omega⟩ : Fin 8192) (⟨t.val / 8 % 8 * 512 + n.val, by omega⟩ : Fin 4096) : S8192x4096.Idx) from
    funext fun a => Fin.ext (by
      match a with
      | ⟨0, _⟩ => show win0_3.index t (0 : Fin 2) * 1024 + 1 * r.val = t.val / 64 * 1024 + r.val; rw [e0]; omega
      | ⟨1, _⟩ => show win0_3.index t (1 : Fin 2) * 512 + 1 * n.val = t.val / 8 % 8 * 512 + n.val; rw [e1]; omega)]
  exact out0_entry V c t h7 r n _ _ rfl rfl

/-- Every index of the result array is in the block of the point (its row block, its column block, 7). -/
theorem cover0 (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 512 := N_0
  have hlt : (i 0).val / 1024 * 64 + (i 1).val / 512 * 8 + 7 < cfg0.N := Nat.lt_of_lt_of_eq (by omega) hN.symm
  obtain ⟨-, -, -, -, -, -, e0, e1⟩ := idx_facts0 ⟨_, hlt⟩
  refine ⟨⟨_, hlt⟩, (flush0_3 _).mpr (by show ((i 0).val / 1024 * 64 + (i 1).val / 512 * 8 + 7) % 8 = 7; omega), ?_⟩
  rw [mem_blk0]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0]; show ((i 0).val / 1024 * 64 + (i 1).val / 512 * 8 + 7) / 64 * 1024 ≤ (i 0).val ∧ (i 0).val < ((i 0).val / 1024 * 64 + (i 1).val / 512 * 8 + 7) / 64 * 1024 + 1024
    omega
  | ⟨1, _⟩ =>
    show win0_3.index ⟨_, hlt⟩ (1 : Fin 2) * 512 ≤ (i 1).val ∧ (i 1).val < win0_3.index ⟨_, hlt⟩ (1 : Fin 2) * 512 + 512
    rw [e1]; show ((i 0).val / 1024 * 64 + (i 1).val / 512 * 8 + 7) / 8 % 8 * 512 ≤ (i 1).val ∧ (i 1).val < ((i 0).val / 1024 * 64 + (i 1).val / 512 * 8 + 7) / 8 % 8 * 512 + 512
    omega

/-- THE ARRAY LAYER 1 LEAVES: the hidden activation of x, W₁ and the bias row as the layer finds them. -/
theorem final0 (c : Dev nD) :
    (dat0 V c).arrAt 3 cfg0.N
      = hidden0' (V c main_arg0 : S8192x4096.Idx → EReal) (V c main_arg1 : S4096x4096.Idx → EReal) (V c main_v0 : S1x4096.Idx → EReal) :=
  (dat0 V c).arrAt_eq_of_cover 3 _ (flushed_eq0 V c) cover0

end Value

end Cert.KernelIdeal.Hand

end
-- ==== Proof.Ideal.R1Value.lean ====
/-
  Layer 2, read as values: what the accumulator and the result block hold after each grid point, and what the result
  array holds after the last one.

  A point's body leaves in the accumulator the accumulator it found plus the product of the point's two input blocks
  (at contraction coordinate 0 it found zero, having stored it first); at contraction coordinate 7 it leaves in the
  result block the indicator of "accumulator plus bias row is above zero". So after the k-th point of a run of eight
  the accumulator is the chain of k + 1 contraction steps from zero over the run's blocks, and the result block written
  back at the end of the run is, entry by entry, the indicator of the sum over all 4096 columns, regrouped in 8 blocks
  of 512, plus the bias entry of the column. The eight-point runs' result blocks tile the result array.
-/
import proofs.«132412_j54778012893659_2_alg».proof.Proof.Ideal.R1Frame
import proofs.«132412_j54778012893659_2_alg».proof.Proof.PayIdeal2
import proofs.«132412_j54778012893659_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What one point's body leaves, for any float values -/

section Pieces
variable {F : FTy → Type} [FloatOps F]

theorem hz1 : (![0, 0] : Fin 2 → Nat) = fun _ => 0 := funext fun a => by fin_cases a <;> rfl

/-- At contraction coordinate 0 the accumulator is left at one contraction step from zero. -/
theorem sout1_A_eq (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i) (x0 : Vec F S1024x512 .f32) (x1 : Vec F S512x512 .f32) (x2 : Vec F S1x512 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x512) hz1, View.readCov_unit_zero (S := S1024x512) _ hz1]
  simp only [View.readAt_eq_ld, harg3.read_unread, harg4.read_unread, View.ld_unit_zero (S := S1024x512) hz1, View.ld_unit_zero (S := S512x512) hz1]

/-- At the coordinates 1 … 6 it is left at one more contraction step from what it held. -/
theorem sout1_B_eq (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i) (x0 : Vec F S1024x512 .f32) (x1 : Vec F S512x512 .f32) (x2 : Vec F S1x512 .f32) (xs0 : Vec F S1024x512 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  rw [View.canon_unit_zero hz1]
  simp only [View.readAt_eq_ld, harg3.read_unread, harg4.read_unread, harg7.read_unread, View.ld_unit_zero (S := S1024x512) hz1, View.ld_unit_zero (S := S512x512) hz1]

/-- At coordinate 7 likewise, -/
theorem sout1_C_eq (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x512 .f32) (x1 : Vec F S512x512 .f32) (x2 : Vec F S1x512 .f32) (xs0 : Vec F S1024x512 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz1]
  simp only [View.readAt_eq_ld, harg3.read_unread, harg4.read_unread, harg7.read_unread, View.ld_unit_zero (S := S1024x512) hz1, View.ld_unit_zero (S := S512x512) hz1]

/-- and the result block is left at the last step of the layer applied to that accumulator and the bias row. -/
theorem out1_C_3_eq (c : Dev nD) (i : grid1.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x512 .f32) (x1 : Vec F S512x512 .f32) (x2 : Vec F S1x512 .f32) (xs0 : Vec F S1024x512 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz1, View.readCov_unit_zero (S := S1024x512) _ hz1]
  simp only [View.readAt_eq_ld, harg3.read_unread, harg4.read_unread, harg5.read_unread, harg7.read_unread, View.ld_unit_zero (S := S1024x512) hz1, View.ld_unit_zero (S := S512x512) hz1, View.ld_unit_zero (S := S1x512) hz1]

end Pieces

/-! ## The accumulator from a point to the next -/

section Steps
variable {F : FTy → Type} [FloatOps F]
variable (V : (c : Dev nD) → (b : Ref sig .tc) → Buf (Elt F) ((c : Thread nD τ).loc b))

/-- The contents after a point depend on the point's position alone. -/
theorem outsAt1_congr (c : Dev nD) {n n' : ℕ} (e : n = n') (h : n < cfg1.N) (h' : n' < cfg1.N) :
    outsAt1 V c n h = outsAt1 V c n' h' := by subst e; rfl

/-- At the first point of a run the accumulator is left at one contraction step from zero over the point's blocks. -/
theorem acc_first1 (c : Dev nD) (t : Fin cfg1.N) (h0 : t.val % 8 = 0) :
    (outsAt1 V c t.val t.isLt).2 = k1_pay2 (iblk1 V c 0 t) (iblk1 V c 1 t) (k1_pay1 (F := F)) := by
  have h1 : ¬t.val % 8 = 7 := by omega
  rw [outsAt1_A V c t h0 h1]
  dsimp only
  exact sout1_A_eq c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)

/-- At a later point of a run it is left at one more step from what the point before left. -/
theorem acc_next1 (c : Dev nD) (t : Fin cfg1.N) (h0 : ¬t.val % 8 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h1 : t.val % 8 = 7
  · rw [outsAt1_C V c t h0 h1]
    dsimp only
    exact sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At the last point of a run the result block is the layer's last step applied to the accumulator the point leaves and
    the bias row. -/
theorem out_last1 (c : Dev nD) (t : Fin cfg1.N) (h1 : t.val % 8 = 7) :
    (outsAt1 V c t.val t.isLt).1 = k1_pay3 (outsAt1 V c t.val t.isLt).2 (iblk1 V c 2 t) := by
  have h0 : ¬t.val % 8 = 0 := by omega
  rw [outsAt1_C V c t h0 h1]
  dsimp only
  refine (out1_C_3_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).trans ?_
  exact congrArg (fun a => k1_pay3 a (iblk1 V c 2 t)) (sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).symm

end Steps

/-! ## The accumulator along a run of eight points, at the exact values -/

section Values
variable (V : (c : Dev nD) → (b : Ref sig .tc) → Buf (Elt Ideal) ((c : Thread nD τ).loc b))

/-- The left input block of point `n` (zero beyond the grid, where nothing reads it). -/
def xAt1 (c : Dev nD) (n : ℕ) : Vec Ideal S1024x512 .f32 :=
  if h : n < cfg1.N then iblk1 V c 0 ⟨n, h⟩ else fun _ => (0 : EReal)
/-- The right input block of point `n`. -/
def wAt1 (c : Dev nD) (n : ℕ) : Vec Ideal S512x512 .f32 :=
  if h : n < cfg1.N then iblk1 V c 1 ⟨n, h⟩ else fun _ => (0 : EReal)

theorem xAt1_lt (c : Dev nD) (n : ℕ) (h : n < cfg1.N) : xAt1 V c n = iblk1 V c 0 ⟨n, h⟩ := dif_pos h
theorem wAt1_lt (c : Dev nD) (n : ℕ) (h : n < cfg1.N) : wAt1 V c n = iblk1 V c 1 ⟨n, h⟩ := dif_pos h

/-- After the k-th point of the run of eight that starts at `b`, the accumulator is the chain of k + 1 contraction
    steps from zero over the run's blocks. -/
theorem acc_run1 (c : Dev nD) (b : ℕ) (hb : b % 8 = 0) : ∀ (k : ℕ) (hk : k < 8) (hn : b + k < cfg1.N),
    (outsAt1 V c (b + k) hn).2 = PayIdeal.acc1 (fun kb => xAt1 V c (b + kb)) (fun kb => wAt1 V c (b + kb)) k
  | 0, _, hn => by
    rw [PayIdeal.acc1_zero]
    beta_reduce
    rw [xAt1_lt V c (b + 0) hn, wAt1_lt V c (b + 0) hn]
    exact acc_first1 V c ⟨b + 0, hn⟩ (show (b + 0) % 8 = 0 by omega)
  | k + 1, hk, hn => by
    rw [PayIdeal.acc1_succ]
    beta_reduce
    rw [xAt1_lt V c (b + (k + 1)) hn, wAt1_lt V c (b + (k + 1)) hn, ← acc_run1 c b hb k (by omega) (by omega)]
    refine (acc_next1 V c ⟨b + (k + 1), hn⟩ (show ¬(b + (k + 1)) % 8 = 0 by omega)).trans ?_
    exact congrArg (fun a => k1_pay2 (F := Ideal) (iblk1 V c 0 ⟨b + (k + 1), hn⟩) (iblk1 V c 1 ⟨b + (k + 1), hn⟩) a.2) (outsAt1_congr V c (show b + (k + 1) - 1 = b + k by omega) _ _)

end Values

/-! ## The blocks read at an entry, and the result block of a run -/

section Blocks
variable (V : (c : Dev nD) → (b : Ref sig .tc) → Buf (Elt Ideal) ((c : Thread nD τ).loc b))

/-- The block indices of the four windows at a point, in closed form: the point `t` is (row block, column block,
    contraction block) = (t / 64, t / 8 % 8, t % 8). -/
theorem idx_facts1 : ∀ t : Fin cfg1.N,
    win1_0.index t (0 : Fin 2) = t.val / 64 ∧ win1_0.index t (1 : Fin 2) = t.val % 8
    ∧ win1_1.index t (0 : Fin 2) = t.val / 8 % 8 ∧ win1_1.index t (1 : Fin 2) = t.val % 8
    ∧ win1_2.index t (0 : Fin 2) = 0 ∧ win1_2.index t (1 : Fin 2) = t.val / 8 % 8
    ∧ win1_3.index t (0 : Fin 2) = t.val / 64 ∧ win1_3.index t (1 : Fin 2) = t.val / 8 % 8 :=
  (by decide +kernel : ∀ t : Fin grid1.N, _)

/-- The readout with the bias kept as a one-row array. -/
def spikes' (h : S8192x4096.Idx → EReal) (W2 : S4096x4096.Idx → EReal) (b : S1x4096.Idx → EReal) : S8192x4096.Idx → EReal :=
  fun idx => if 0 < (∑ k : Fin 4096, h (ix2 (idx 0) k) * W2 (ix2 (idx 1) k)) + b (ix2 (0 : Fin 1) (idx 1)) then 1 else 0

theorem spikes'_ix2 (h : S8192x4096.Idx → EReal) (W2 : S4096x4096.Idx → EReal) (b : S1x4096.Idx → EReal) (R : Fin 8192) (J : Fin 4096) :
    spikes' h W2 b (ix2 R J) = if 0 < (∑ k : Fin 4096, h (ix2 R k) * W2 (ix2 J k)) + b (ix2 (0 : Fin 1) J) then 1 else 0 := rfl

/-- With the one-row array read as the bias vector it is the specification's readout. -/
theorem spikes'_eq_spikes (h : S8192x4096.Idx → EReal) (W2 : S4096x4096.Idx → EReal) (b : S1x4096.Idx → EReal)
    (b2 : Cert.Spec.SB.Idx → EReal) (hb : ∀ j : Fin 4096, b (ix2 (0 : Fin 1) j) = b2 (ix1 j)) :
    spikes' h W2 b = Cert.Spec.spikes h W2 b2 := by
  funext idx
  show (if 0 < (∑ k : Fin 4096, h (ix2 (idx 0) k) * W2 (ix2 (idx 1) k)) + b (ix2 (0 : Fin 1) (idx 1)) then (1 : EReal) else 0)
    = if 0 < (∑ k : Fin 4096, h (ix2 (idx 0) k) * W2 (ix2 (idx 1) k)) + b2 (ix1 (idx 1)) then 1 else 0
  rw [hb (idx 1)]

/-- An entry of the left block of point `n`: the hidden activation at row (n / 64) · 1024 + r, column (n % 8) · 512 + kk. -/
theorem xAt1_apply (c : Dev nD) (n : ℕ) (h : n < cfg1.N) (r : Fin 1024) (kk : Fin 512) (R : Fin 8192) (K : Fin 4096)
    (hR : R.val = n / 64 * 1024 + r.val) (hK : K.val = n % 8 * 512 + kk.val) :
    xAt1 V c n (ix2 r kk) = V c main_v2 (ix2 R K) := by
  rw [xAt1_lt V c n h]
  obtain ⟨e0, e1, -⟩ := idx_facts1 ⟨n, h⟩
  show V c main_v2 (((cfg1.win 0).blk ⟨n, h⟩).view.emb (ix2 r kk)) = V c main_v2 (ix2 R K)
  refine congrArg (V c main_v2) (funext fun a => Fin.ext ?_)
  match a with
  | ⟨0, _⟩ => show win1_0.index ⟨n, h⟩ (0 : Fin 2) * 1024 + 1 * r.val = R.val; rw [e0, hR]; dsimp only; omega
  | ⟨1, _⟩ => show win1_0.index ⟨n, h⟩ (1 : Fin 2) * 512 + 1 * kk.val = K.val; rw [e1, hK]; dsimp only; omega

/-- An entry of the right block of point `n`: the weight at row (n / 8 % 8) · 512 + q, column (n % 8) · 512 + kk. -/
theorem wAt1_apply (c : Dev nD) (n : ℕ) (h : n < cfg1.N) (q : Fin 512) (kk : Fin 512) (J : Fin 4096) (K : Fin 4096)
    (hJ : J.val = n / 8 % 8 * 512 + q.val) (hK : K.val = n % 8 * 512 + kk.val) :
    wAt1 V c n (ix2 q kk) = V c main_arg3 (ix2 J K) := by
  rw [wAt1_lt V c n h]
  obtain ⟨-, -, e0, e1, -⟩ := idx_facts1 ⟨n, h⟩
  show V c main_arg3 (((cfg1.win 1).blk ⟨n, h⟩).view.emb (ix2 q kk)) = V c main_arg3 (ix2 J K)
  refine congrArg (V c main_arg3) (funext fun a => Fin.ext ?_)
  match a with
  | ⟨0, _⟩ => show win1_1.index ⟨n, h⟩ (0 : Fin 2) * 512 + 1 * q.val = J.val; rw [e0, hJ]; dsimp only; omega
  | ⟨1, _⟩ => show win1_1.index ⟨n, h⟩ (1 : Fin 2) * 512 + 1 * kk.val = K.val; rw [e1, hK]; dsimp only; omega

/-- An entry of the bias block of point `t`: the one-row array at column (t / 8 % 8) · 512 + q. -/
theorem bias1_apply (c : Dev nD) (t : Fin cfg1.N) (q : Fin 512) (J : Fin 4096) (hJ : J.val = t.val / 8 % 8 * 512 + q.val) :
    (iblk1 V c 2 t : Vec Ideal S1x512 .f32) (ix2 (0 : Fin 1) q) = V c main_v1 (ix2 (0 : Fin 1) J) := by
  obtain ⟨-, -, -, -, e0, e1, -⟩ := idx_facts1 t
  show V c main_v1 (((cfg1.win 2).blk t).view.emb (ix2 (0 : Fin 1) q)) = V c main_v1 (ix2 (0 : Fin 1) J)
  refine congrArg (V c main_v1) (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 512 + 1 * q.val = J.val; rw [e1, hJ]; omega

end Blocks

/-! ## The result block of a run, the blocks' tiling, and the result array -/

section Final
variable (V : (c : Dev nD) → (b : Ref sig .tc) → Buf (Elt Ideal) ((c : Thread nD τ).loc b))

/-- An entry of the result block written back at the end of a run: the readout at the entry's place in the array. -/
theorem block_entry1 (c : Dev nD) (t : Fin cfg1.N) (h7 : t.val % 8 = 7) (r : Fin 1024) (q : Fin 512) (R : Fin 8192) (J : Fin 4096)
    (hR : R.val = t.val / 64 * 1024 + r.val) (hJ : J.val = t.val / 8 % 8 * 512 + q.val) :
    (outsAt1 V c t.val t.isLt).1 (ix2 r q) = spikes' (V c main_v2) (V c main_arg3) (V c main_v1) (ix2 R J) := by
  have hN : cfg1.N = 512 := N_1
  have ht := t.isLt
  have hb : (t.val - 7) % 8 = 0 := by omega
  have hlt : t.val - 7 + 7 < cfg1.N := by omega
  have hacc : (outsAt1 V c t.val t.isLt).2
      = PayIdeal.acc1 (fun kb => xAt1 V c (t.val - 7 + kb)) (fun kb => wAt1 V c (t.val - 7 + kb)) 7 :=
    (congrArg Prod.snd (outsAt1_congr V c (show t.val = t.val - 7 + 7 by omega) t.isLt hlt)).trans
      (acc_run1 V c (t.val - 7) hb 7 (by omega) hlt)
  have e1 := PayIdeal.acc1_seven (fun kb => xAt1 V c (t.val - 7 + kb)) (fun kb => wAt1 V c (t.val - 7 + kb))
    (fun kb : Fin 8 => xAt1 V c (t.val - 7 + kb.val)) (fun kb : Fin 8 => wAt1 V c (t.val - 7 + kb.val)) (fun _ => rfl) (fun _ => rfl) r q
  have e2 := bias1_apply V c t q J hJ
  have e3 : (∑ kb : Fin 8, ∑ kk : Fin 512, xAt1 V c (t.val - 7 + kb.val) (ix2 r kk) * wAt1 V c (t.val - 7 + kb.val) (ix2 q kk))
      = ∑ k : Fin 4096, @HMul.hMul EReal EReal EReal _ (V c main_v2 (ix2 R k)) (V c main_arg3 (ix2 J k)) := by
    rw [Cert.Spec.rowdot_blocks (A := 8192) (B := 4096) (V c main_v2) (V c main_arg3) R J]
    refine Finset.sum_congr rfl fun kb _ => Finset.sum_congr rfl fun kk _ => ?_
    have hkb := kb.isLt
    rw [xAt1_apply V c (t.val - 7 + kb.val) (by omega) r kk R (Cert.Spec.blk kb kk) (by rw [hR]; omega) (by show kb.val * 512 + kk.val = _; omega),
      wAt1_apply V c (t.val - 7 + kb.val) (by omega) q kk J (Cert.Spec.blk kb kk) (by rw [hJ]; omega) (by show kb.val * 512 + kk.val = _; omega)]
  rw [out_last1 V c t h7, hacc]
  refine (PayIdeal.k1_pay3_apply _ (iblk1 V c 2 t) r q).trans ?_
  rw [spikes'_ix2, ← e3, ← e1, ← e2]

/-- What the last point of a run writes back is its block of the readout. -/
theorem flushed_eq1 (c : Dev nD) (t : Fin cfg1.N) (hf : (cfg1.win 3).flush t = true) :
    (dat1 V c).flushed 3 t = ((cfg1.win 3).blk t).view.read (Elt Ideal) (spikes' (V c main_v2) (V c main_arg3) (V c main_v1)) := by
  have h7 : t.val % 8 = 7 := (flush1_3 t).mp hf
  have hN : cfg1.N = 512 := N_1
  have ht := t.isLt
  show (cfg1.win 3).cut (grid1.coords t) ((dat1 V c).after 3 t) = _
  rw [after1_3]
  funext j
  obtain ⟨-, -, -, -, -, -, e0, e1⟩ := idx_facts1 t
  have hj0 : (j 0).val < 1024 := (j 0).isLt
  have hj1 : (j 1).val < 512 := (j 1).isLt
  show (outsAt1 V c t.val t.isLt).1 j = spikes' (V c main_v2) (V c main_arg3) (V c main_v1) (((cfg1.win 3).blk t).view.emb j)
  have ej : (j : S1024x512.Idx) = ix2 (⟨(j 0).val, hj0⟩ : Fin 1024) (⟨(j 1).val, hj1⟩ : Fin 512) :=
    funext fun a => Fin.ext (by match a with | ⟨0, _⟩ => rfl | ⟨1, _⟩ => rfl)
  have eemb : (((cfg1.win 3).blk t).view.emb j : S8192x4096.Idx)
      = ix2 (⟨t.val / 64 * 1024 + (j 0).val, by omega⟩ : Fin 8192) (⟨t.val / 8 % 8 * 512 + (j 1).val, by omega⟩ : Fin 4096) :=
    funext fun a => Fin.ext (by
      match a with
      | ⟨0, _⟩ => show win1_3.index t (0 : Fin 2) * 1024 + 1 * (j 0).val = t.val / 64 * 1024 + (j 0).val; rw [e0]; omega
      | ⟨1, _⟩ => show win1_3.index t (1 : Fin 2) * 512 + 1 * (j 1).val = t.val / 8 % 8 * 512 + (j 1).val; rw [e1]; omega)
  refine (congrArg (outsAt1 V c t.val t.isLt).1 ej).trans ?_
  refine Eq.trans ?_ (congrArg (spikes' (V c main_v2) (V c main_arg3) (V c main_v1)) eemb.symm)
  exact block_entry1 V c t h7 _ _ _ _ rfl rfl

/-- An index of the result array is in point `t`'s block iff each coordinate is in the block's range on its axis. -/
theorem mem_blk1 (t : Fin cfg1.N) (i : S8192x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v3).slice (win1_3.rect t)).set ↔ _
  rw [View.set_slice_whole, Rect.mem_set_unit]
  exact Iff.rfl

/-- Every entry of the result array is in the block some run writes back: entry (R, J) in that of the run that ends at
    point 64 (R / 1024) + 8 (J / 512) + 7. -/
theorem cover1 (i : S8192x4096.Idx) : ∃ t : Fin cfg1.N, (cfg1.win 3).flush t = true ∧ i ∈ ((cfg1.win 3).blk t).view.set := by
  have hN : cfg1.N = 512 := N_1
  have hi0 : (i 0).val < 8192 := (i 0).isLt
  have hi1 : (i 1).val < 4096 := (i 1).isLt
  have hlt : 64 * ((i 0).val / 1024) + 8 * ((i 1).val / 512) + 7 < cfg1.N := by omega
  obtain ⟨-, -, -, -, -, -, e0, e1⟩ := idx_facts1 ⟨64 * ((i 0).val / 1024) + 8 * ((i 1).val / 512) + 7, hlt⟩
  refine ⟨⟨64 * ((i 0).val / 1024) + 8 * ((i 1).val / 512) + 7, hlt⟩, (flush1_3 _).mpr (by dsimp only; omega), ?_⟩
  rw [mem_blk1]
  intro a
  match a with
  | ⟨0, _⟩ =>
    show win1_3.index _ (0 : Fin 2) * 1024 ≤ (i 0).val ∧ (i 0).val < win1_3.index _ (0 : Fin 2) * 1024 + 1024
    rw [e0]; dsimp only; omega
  | ⟨1, _⟩ =>
    show win1_3.index _ (1 : Fin 2) * 512 ≤ (i 1).val ∧ (i 1).val < win1_3.index _ (1 : Fin 2) * 512 + 512
    rw [e1]; dsimp only; omega

/-- The result array after the layer: the readout of the hidden activation, the second weights and the bias row as the
    layer finds them. -/
theorem final1 (c : Dev nD) : (dat1 V c).arrAt 3 cfg1.N = spikes' (V c main_v2) (V c main_arg3) (V c main_v1) :=
  (dat1 V c).arrAt_eq_of_cover 3 (spikes' (V c main_v2) (V c main_arg3) (V c main_v1)) (flushed_eq1 V c) cover1

end Final

end Cert.KernelIdeal.Hand

end
-- ==== Proof.Ideal.Whole.lean ====
/-
  The two layers joined: layer 2 is entered with layer 1's result array as its left matrix, the second weight matrix
  and the second bias row as launched, so the program's result array is the network's function of the five arguments.
-/
import proofs.«132412_j54778012893659_2_alg».proof.Proof.Ideal.Glue
import proofs.«132412_j54778012893659_2_alg».proof.Proof.Ideal.R0Value
import proofs.«132412_j54778012893659_2_alg».proof.Proof.Ideal.R1Value
import proofs.«132412_j54778012893659_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- What layer 2's write-backs leave, from the launch contents: the network's function of the five arguments. -/
theorem final_value (c : Dev nD) :
    (dat1 (V2 m ρ) c).arrAt 3 cfg1.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [final1 (V2 m ρ) c, V2_main_v2 m ρ c, final0 (V1 m ρ) c, V2_main_arg3, V1_main_arg3, V2_main_v1, V1_main_v1, V1_main_arg0, V1_main_arg1, V1_main_v0]
  rw [hidden0'_eq_hidden _ _ _ (m ((c.tc : Thread nD τ).loc main_arg2)) (fun j => row_of_vec _ j),
    spikes'_eq_spikes _ _ _ (m ((c.tc : Thread nD τ).loc main_arg4)) (fun j => row_of_vec _ j)]
  rfl

end Cert.KernelIdeal.Hand

end
-- ==== Proof.RefSide.lean ====
/-
  The reference, read index by index, is the two-layer perceptron with a threshold readout.

  Its first stage is `x · W₁ᵀ` (each entry the sum over k of x (r, k) * W₁ (j, k)); the bias of column j, carried to
  every row by two broadcasts, is added; the maximum with the zero constant gives the hidden activation. The second
  stage repeats the product and the bias with the hidden activation in place of x, and the comparison with the zero
  constant, read as a number, is the indicator of "above zero". Each operation reads its operands at indices that are
  fixed functions of the result's index; identifying those functions with the row and column coordinates is all the
  proof does.
-/
import proofs.«132412_j54778012893659_2_alg».proof.Defs
import proofs.«132412_j54778012893659_2_alg».proof.Proof.Gen.ReferenceIdeal.Read
import proofs.«132412_j54778012893659_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-! ## The operand indices are the row and column coordinates -/

theorem lidx0_eq (i : S8192x4096.Idx) (k : Fin 4096) : lidx_main_v0 i k = ix2 (i 0) k :=
  funext fun a => Fin.ext (by match a with | ⟨0, _⟩ => rfl | ⟨1, _⟩ => rfl)
theorem ridx0_eq (i : S8192x4096.Idx) (k : Fin 4096) : ridx_main_v0 i k = ix2 (i 1) k :=
  funext fun a => Fin.ext (by match a with | ⟨0, _⟩ => rfl | ⟨1, _⟩ => rfl)
theorem lidx5_eq (i : S8192x4096.Idx) (k : Fin 4096) : lidx_main_v5 i k = ix2 (i 0) k :=
  funext fun a => Fin.ext (by match a with | ⟨0, _⟩ => rfl | ⟨1, _⟩ => rfl)
theorem ridx5_eq (i : S8192x4096.Idx) (k : Fin 4096) : ridx_main_v5 i k = ix2 (i 1) k :=
  funext fun a => Fin.ext (by match a with | ⟨0, _⟩ => rfl | ⟨1, _⟩ => rfl)
/-- The bias entry a result index reads, through the two broadcasts: the one of its column. -/
theorem bias1_idx_eq (i : S8192x4096.Idx) : idx_main_v1 (idx_main_v2 i) = ix1 (i 1) :=
  funext fun a => Fin.ext (by match a with | ⟨0, _⟩ => rfl)
theorem bias2_idx_eq (i : S8192x4096.Idx) : idx_main_v6 (idx_main_v7 i) = ix1 (i 1) :=
  funext fun a => Fin.ext (by match a with | ⟨0, _⟩ => rfl)

/-! ## The stages -/

/-- The first layer's stage is the hidden activation. -/
theorem hidden_eq (x0 : (⟨S8192x4096, .f32⟩ : BufTy).Contents (Elt Ideal)) (x1 : (⟨S4096x4096, .f32⟩ : BufTy).Contents (Elt Ideal)) (x2 : (⟨S4096, .f32⟩ : BufTy).Contents (Elt Ideal)) :
    val_main_v4 (F := Ideal) x0 x1 x2 = Cert.Spec.hidden x0 x1 x2 := by
  funext i
  rw [val_main_v4_apply, val_main_v3_apply, val_main_v0_apply, val_main_v2_apply, val_main_v1_apply,
    val_main_call0_v0_apply, val_main_call0_cst_apply, bias1_idx_eq]
  simp only [lidx0_eq, ridx0_eq, Ideal.addf_def, Ideal.maximumf_def, Ideal.ofBits_def, Ideal.ofBits_zero_f32]
  rfl

/-- The last stage is the readout of the stage before the second product. -/
theorem spikes_eq (x0 : (⟨S8192x4096, .f32⟩ : BufTy).Contents (Elt Ideal)) (x1 : (⟨S4096x4096, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) :
    val_main_v11 (F := Ideal) x0 x1 x2 x3 x4 = Cert.Spec.spikes (val_main_v4 (F := Ideal) x0 x1 x2) x3 x4 := by
  funext i
  rw [val_main_v11_apply, val_main_v10_apply, val_main_v8_apply, val_main_v5_apply, val_main_v7_apply, val_main_v6_apply,
    val_main_v9_apply, val_main_cst_apply, bias2_idx_eq]
  rw [Cert.Spec.uitofp_ogt_zero _ _ (by rw [Ideal.ofBits_def, Ideal.ofBits_zero_f32])]
  simp only [lidx5_eq, ridx5_eq, Ideal.addf_def]
  rfl

/-- The reference's result term, for any five argument arrays, is the specification. -/
theorem ref_eq_G (x0 : (⟨S8192x4096, .f32⟩ : BufTy).Contents (Elt Ideal)) (x1 : (⟨S4096x4096, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) :
    uitofp (F := Ideal) .f32 (cmpf (F := Ideal) .ogt (addf (F := Ideal) (Host.dotGeneral (F := Ideal) (φ₁ := .f32) (φ₂ := .f32) dot_S8192x4096_S4096x4096_S8192x4096_1_1_0_0_n_n none (maximumf (F := Ideal) (addf (F := Ideal) (Host.dotGeneral (F := Ideal) (φ₁ := .f32) (φ₂ := .f32) dot_S8192x4096_S4096x4096_S8192x4096_1_1_0_0_n_n none (x0) (x1)) (broadcastInDim S8192x4096 ![0, 1] bcast_S1x4096_S8192x4096_0_1 (broadcastInDim S1x4096 ![1] bcast_S4096_S1x4096_1 (x2)))) (broadcastInDim S8192x4096 ![] bcast_S_S8192x4096 (constant (F := Ideal) S_ .f32 0x00000000#32))) (x3)) (broadcastInDim S8192x4096 ![0, 1] bcast_S1x4096_S8192x4096_0_1 (broadcastInDim S1x4096 ![1] bcast_S4096_S1x4096_1 (x4)))) (broadcastInDim S8192x4096 ![] bcast_S_S8192x4096 (constant (F := Ideal) S_ .f32 0x00000000#32)))
      = Cert.Spec.G x0 x1 x2 x3 x4 := by
  rw [val_main_v11_eq, spikes_eq, hidden_eq]
  rfl

/-- Every weakly fair execution of the reference terminates with its result the specification of the five argument
    arrays as they were at the start, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (ref_eq_G _ _ _ _ _), (h c).2⟩)
    (Cert.ReferenceIdeal.Value.run (F := Ideal) m ρ)

end Cert.ReferenceIdeal.RefValue

end
-- ==== Proof.lean ====
/-
  A two-layer network on an 8192 x 4096 batch: hidden = max(x · W1ᵀ + b1, 0), result = 1 where hidden · W2ᵀ + b2 > 0
  and 0 elsewhere. The kernel computes each layer block by block — a 1024 x 512 block of the layer's result from eight
  products of a 1024 x 512 block of the left matrix with a 512 x 512 block of the weights, summed in an accumulator,
  the bias row added and the layer's last step applied when the eighth product is in —, the reference as two whole
  matrix products. On the extended reals the two are one function of the five arguments: a sum over 4096 terms is the
  sum of its eight consecutive runs of 512, whatever the terms (addition there is commutative and associative, no
  finiteness is used).
  The frames: each layer's run point by point (Bits/ and Ideal/: the same text at the two instances), the program as
  the reshapes and the two layers in order (Run); the reference's run is its generated read-back. The idealization
  rewrote no operation, so nothing is owed for it.
-/
import proofs.«132412_j54778012893659_2_alg».proof.Defs
import proofs.«132412_j54778012893659_2_alg».proof.Proof.Gen.Kernel
import proofs.«132412_j54778012893659_2_alg».proof.Proof.Gen.KernelIdeal
import proofs.«132412_j54778012893659_2_alg».proof.Proof.Gen.ReferenceIdeal
import proofs.«132412_j54778012893659_2_alg».proof.Proof.Gen.Pre_finite_inputs
import proofs.«132412_j54778012893659_2_alg».proof.Proof.Bits.Run
import proofs.«132412_j54778012893659_2_alg».proof.Proof.Ideal.Whole
import proofs.«132412_j54778012893659_2_alg».proof.Proof.RefSide

noncomputable section

namespace Cert.Proof

open Idealize.ShloMosaic Idealize.SL.Sem

/-- The kernel as printed runs to its end and leaves its arguments as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the network's function of the arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.KernelIdeal.Hand.final_value m ρ c), (h c).2⟩)
      (Cert.KernelIdeal.Hand.run_value (F := Ideal) m ρ)
  · refine (θ_run Cert.ReferenceIdeal.defs _ _).mono (fun _ h c => ⟨?_, (h c).2⟩)
      (Cert.ReferenceIdeal.RefValue.run_G m' ρ')
    rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
